-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S2x1048576 : Shape := ⟨2, ![2, 1048576]⟩
abbrev S262144 : Shape := ⟨1, ![262144]⟩
abbrev S64x256 : Shape := ⟨2, ![64, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256 .f32) (main_arg10 : FVec F S256x1 .f32) (main_arg11 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg10
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x256 .f32) (main_arg7 : FVec F S3x256x256 .f32) (main_arg8 : FVec F S256x256 .f32) (main_arg9 : FVec F S256 .f32) (main_arg10 : FVec F S256x1 .f32) (main_arg11 : FVec F S1 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x256 .f32 := Host.absf main_arg7
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S262144x64 .f32) (main_arg1 : IVec S2x1048576 32) (main_arg2 : IVec S262144 32) (main_arg3 : FVec F S64x256 .f32) (main_arg4 : FVec F S256 .f32) (main_arg5 : FVec F S3x256x256 .f32) (main_arg6 : FVec F S3x256 .f32) (main_arg7 : FVec F S3x256x256 .f32) (main_arg8 : FVec F S256x256 .f32) (main_arg9 : FVec F S256 .f32) (main_arg10 : FVec F S256x1 .f32) (main_arg11 : FVec F S1 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_arg7 main_arg8 main_arg9 main_arg10 main_arg11 main_v13 main_v16
-- ==== Kernel.lean ====
abbrev S262144x64 : Shape := ⟨2, ![262144, 64]⟩
abbrev S2x1048576 : Shape := ⟨2, ![2, 1048576]⟩
abbrev S262144 : Shape := ⟨1, ![262144]⟩
abbrev S64x256 : Shape := ⟨2, ![64, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x1 : Shape := ⟨2, ![256, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S262144x1 : Shape := ⟨2, ![262144, 1]⟩
abbrev S262144x256 : Shape := ⟨2, ![262144, 256]⟩
abbrev S4096x64 : Shape := ⟨2, ![4096, 64]⟩
abbrev S4096x256 : Shape := ⟨2, ![4096, 256]⟩
abbrev S1x256 : Shape := ⟨2, ![1, 256]⟩
abbrev S1048576x256 : Shape := ⟨2, ![1048576, 256]⟩
abbrev S1x256x256 : Shape := ⟨3, ![1, 256, 256]⟩
abbrev S2048x256 : Shape := ⟨2, ![2048, 256]⟩
abbrev S8192x256 : Shape := ⟨2, ![8192, 256]⟩
abbrev S8192x1 : Shape := ⟨2, ![8192, 1]⟩
abbrev S2048x1 : Shape := ⟨2, ![2048, 1]⟩
abbrev S1x1 : Shape := ⟨2, ![1, 1]⟩

abbrev nBuf : Space → Nat
  | .hbm => 106
  | .vmem => 41
  | .smem => 0
  | _ => 0

abbrev bufTy : (tb : Table) → Fin (tcTables nBuf tb) → BufTy
  | .hbm, ⟨0, _⟩ => ⟨S262144x64, .f32⟩
  | .hbm, ⟨1, _⟩ => ⟨S2x1048576, .i32⟩
  | .hbm, ⟨2, _⟩ => ⟨S262144, .i32⟩
  | .hbm, ⟨3, _⟩ => ⟨S64x256, .f32⟩
  | .hbm, ⟨4, _⟩ => ⟨S256, .f32⟩
  | .hbm, ⟨5, _⟩ => ⟨S3x256x256, .f32⟩
  | .hbm, ⟨6, _⟩ => ⟨S3x256, .f32⟩
  | .hbm, ⟨7, _⟩ => ⟨S3x256x256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x1048576, .i32⟩
  | .hbm, ⟨13, _⟩ => ⟨S1048576, .i32⟩
  | .hbm, ⟨14, _⟩ => ⟨S1x1048576, .i32⟩
  | .hbm, ⟨15, _⟩ => ⟨S1048576, .i32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S262144, .f32⟩
  | .hbm, ⟨20, _⟩ => ⟨S1048576x1, .i32⟩
  | .hbm, ⟨21, _⟩ => ⟨S262144, .f32⟩
  | .hbm, ⟨22, _⟩ => ⟨S_, .f32⟩
  | .hbm, ⟨23, _⟩ => ⟨S262144, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S262144x1, .f32⟩
  | .hbm, ⟨29, _⟩ => ⟨S64x256, .bf16⟩
  | .hbm, ⟨30, _⟩ => ⟨S262144x256, .f32⟩
  | .hbm, ⟨31, _⟩ => ⟨S3x256x256, .bf16⟩
  | .hbm, ⟨32, _⟩ => ⟨S3x256x256, .bf16⟩
  | .hbm, ⟨33, _⟩ => ⟨S_, .i32⟩
  | .hbm, ⟨34, _⟩ => ⟨S1048576, .i32⟩
  | .hbm, ⟨35, _⟩ => ⟨S1048576, .i1⟩
  | .hbm, ⟨36, _⟩ => ⟨S_, .i32⟩
  | .hbm, ⟨37, _⟩ => ⟨S1048576, .i32⟩
  | .hbm, ⟨38, _⟩ => ⟨S1048576, .i32⟩
  | .hbm, ⟨39, _⟩ => ⟨S1048576, .i32⟩
  | .hbm, ⟨40, _⟩ => ⟨S1048576x1, .i32⟩
  | .hbm, ⟨41, _⟩ => ⟨S1048576x256, .f32⟩
  | .hbm, ⟨42, _⟩ => ⟨S_, .f32⟩
  | .hbm, ⟨43, _⟩ => ⟨S262144x256, .f32⟩
  | .hbm, ⟨44, _⟩ => ⟨S1048576x1, .i32⟩
  | .hbm, ⟨45, _⟩ => ⟨S262144x256, .f32⟩
  | .hbm, ⟨46, _⟩ => ⟨S262144x256, .f32⟩
  | .hbm, ⟨47, _⟩ => ⟨S262144x256, .f32⟩
  | .hbm, ⟨48, _⟩ => ⟨S1x256x256, .bf16⟩
  | .hbm, ⟨49, _⟩ => ⟨S256x256, .bf16⟩
  | .hbm, ⟨50, _⟩ => ⟨S1x256, .f32⟩
  | .hbm, ⟨51, _⟩ => ⟨S256, .f32⟩
  | .hbm, ⟨52, _⟩ => ⟨S1x256x256, .bf16⟩
  | .hbm, ⟨53, _⟩ => ⟨S256x256, .bf16⟩
  | .hbm, ⟨54, _⟩ => ⟨S262144x256, .f32⟩
  | .hbm, ⟨55, _⟩ => ⟨S_, .i32⟩
  | .hbm, ⟨56, _⟩ => ⟨S1048576, .i32⟩
  | .hbm, ⟨57, _⟩ => ⟨S1048576, .i1⟩
  | .hbm, ⟨58, _⟩ => ⟨S_, .i32⟩
  | .hbm, ⟨59, _⟩ => ⟨S1048576, .i32⟩
  | .hbm, ⟨60, _⟩ => ⟨S1048576, .i32⟩
  | .hbm, ⟨61, _⟩ => ⟨S1048576, .i32⟩
  | .hbm, ⟨62, _⟩ => ⟨S1048576x1, .i32⟩
  | .hbm, ⟨63, _⟩ => ⟨S1048576x256, .f32⟩
  | .hbm, ⟨64, _⟩ => ⟨S_, .f32⟩
  | .hbm, ⟨65, _⟩ => ⟨S262144x256, .f32⟩
  | .hbm, ⟨66, _⟩ => ⟨S1048576x1, .i32⟩
  | .hbm, ⟨67, _⟩ => ⟨S262144x256, .f32⟩
  | .hbm, ⟨68, _⟩ => ⟨S262144x256, .f32⟩
  | .hbm, ⟨69, _⟩ => ⟨S262144x256, .f32⟩
  | .hbm, ⟨70, _⟩ => ⟨S1x256x256, .bf16⟩
  | .hbm, ⟨71, _⟩ => ⟨S256x256, .bf16⟩
  | .hbm, ⟨72, _⟩ => ⟨S1x256, .f32⟩
  | .hbm, ⟨73, _⟩ => ⟨S256, .f32⟩
  | .hbm, ⟨74, _⟩ => ⟨S1x256x256, .bf16⟩
  | .hbm, ⟨75, _⟩ => ⟨S256x256, .bf16⟩
  | .hbm, ⟨76, _⟩ => ⟨S262144x256, .f32⟩
  | .hbm, ⟨77, _⟩ => ⟨S_, .i32⟩
  | .hbm, ⟨78, _⟩ => ⟨S1048576, .i32⟩
  | .hbm, ⟨79, _⟩ => ⟨S1048576, .i1⟩
  | .hbm, ⟨80, _⟩ => ⟨S_, .i32⟩
  | .hbm, ⟨81, _⟩ => ⟨S1048576, .i32⟩
  | .hbm, ⟨82, _⟩ => ⟨S1048576, .i32⟩
  | .hbm, ⟨83, _⟩ => ⟨S1048576, .i32⟩
  | .hbm, ⟨84, _⟩ => ⟨S1048576x1, .i32⟩
  | .hbm, ⟨85, _⟩ => ⟨S1048576x256, .f32⟩
  | .hbm, ⟨86, _⟩ => ⟨S_, .f32⟩
  | .hbm, ⟨87, _⟩ => ⟨S262144x256, .f32⟩
  | .hbm, ⟨88, _⟩ => ⟨S1048576x1, .i32⟩
  | .hbm, ⟨89, _⟩ => ⟨S262144x256, .f32⟩
  | .hbm, ⟨90, _⟩ => ⟨S262144x256, .f32⟩
  | .hbm, ⟨91, _⟩ => ⟨S262144x256, .f32⟩
  | .hbm, ⟨92, _⟩ => ⟨S1x256x256, .bf16⟩
  | .hbm, ⟨93, _⟩ => ⟨S256x256, .bf16⟩
  | .hbm, ⟨94, _⟩ => ⟨S1x256, .f32⟩
  | .hbm, ⟨95, _⟩ => ⟨S256, .f32⟩
  | .hbm, ⟨96, _⟩ => ⟨S1x256x256, .bf16⟩
  | .hbm, ⟨97, _⟩ => ⟨S256x256, .bf16⟩
  | .hbm, ⟨98, _⟩ => ⟨S262144x256, .f32⟩
  | .hbm, ⟨99, _⟩ => ⟨S_, .f32⟩
  | .hbm, ⟨100, _⟩ => ⟨S8192x256, .f32⟩
  | .hbm, ⟨101, _⟩ => ⟨S262144x1, .i32⟩
  | .hbm, ⟨102, _⟩ => ⟨S8192x256, .f32⟩
  | .hbm, ⟨103, _⟩ => ⟨S256x256, .bf16⟩
  | .hbm, ⟨104, _⟩ => ⟨S256x1, .bf16⟩
  | .hbm, ⟨105, _⟩ => ⟨S8192x1, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S256, .f32⟩
  | .local _ .vmem, ⟨4, _⟩ => ⟨S4096x256, .f32⟩
  | .local _ .vmem, ⟨5, _⟩ => ⟨S4096x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S256x256, .bf16⟩
  | .local _ .vmem, ⟨20, _⟩ => ⟨S256, .f32⟩
  | .local _ .vmem, ⟨21, _⟩ => ⟨S256x256, .bf16⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S256x256, .bf16⟩
  | .local _ .vmem, ⟨29, _⟩ => ⟨S256, .f32⟩
  | .local _ .vmem, ⟨30, _⟩ => ⟨S256x256, .bf16⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S256x256, .bf16⟩
  | .local _ .vmem, ⟨36, _⟩ => ⟨S256, .f32⟩
  | .local _ .vmem, ⟨37, _⟩ => ⟨S256x1, .bf16⟩
  | .local _ .vmem, ⟨38, _⟩ => ⟨S1, .f32⟩
  | .local _ .vmem, ⟨39, _⟩ => ⟨S2048x1, .f32⟩
  | .local _ .vmem, ⟨40, _⟩ => ⟨S2048x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S262144 : S_.BroadcastsInDim S262144 (![] : Fin 0 → Fin S262144.rank)
  bcast_S1048576_S1048576x1_0 : S1048576.BroadcastsInDim S1048576x1 (![0] : Fin 1 → Fin S1048576x1.rank)
  bcast_S262144_S262144x1_0 : S262144.BroadcastsInDim S262144x1 (![0] : Fin 1 → Fin S262144x1.rank)
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  broadcasts_S1x256_S2048x256 : S1x256.Broadcasts S2048x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S8192x256 : S_.BroadcastsInDim S8192x256 (![] : Fin 0 → Fin S8192x256.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S262144_S1048576x1_S1048576_n_0_0_1_wf : ScatterDims.WF S262144 S1048576x1 S1048576 [] [0] [0] 1
  dot_S4096x64_S64x256_S4096x256_1_0_0_1_n_n_wf : DotDims.WF S4096x64 S64x256 S4096x256 [1] [0] [0] [1] [] []
  gather_S262144x256_S1048576x1_S1048576x256_1_0_n_n_0_1_1256_wf : GatherDims.WF S262144x256 S1048576x1 S1048576x256 [1] [0] [] [0] [] 1 ![1, 256]
  scatter_S262144x256_S1048576x1_S1048576x256_1_0_0_1_wf : ScatterDims.WF S262144x256 S1048576x1 S1048576x256 [1] [0] [0] 1
  dot_S2048x256_S256x256_S2048x256_1_0_0_1_n_n_wf : DotDims.WF S2048x256 S256x256 S2048x256 [1] [0] [0] [1] [] []
  scatter_S8192x256_S262144x1_S262144x256_1_0_0_1_wf : ScatterDims.WF S8192x256 S262144x1 S262144x256 [1] [0] [0] 1
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S262144x256.size a
  hwx1_1 : ∀ i : grid1.Coords, EltTy.bits .f32 = 32 ∨ (Rect.block (s := S262144x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S262144x256.size a
  hwx1_5 : ∀ i : grid1.Coords, EltTy.bits .f32 = 32 ∨ (Rect.block (s := S262144x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S262144x256.size a
  hwx2_0 : ∀ i : grid2.Coords, EltTy.bits .f32 = 32 ∨ (Rect.block (s := S262144x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S262144x256.size a
  hwx2_1 : ∀ i : grid2.Coords, EltTy.bits .f32 = 32 ∨ (Rect.block (s := S262144x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S262144x256.size a
  hwx2_5 : ∀ i : grid2.Coords, EltTy.bits .f32 = 32 ∨ (Rect.block (s := S262144x256) S2048x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S262144x256.size a
  hwx3_0 : ∀ i : grid3.Coords, EltTy.bits .f32 = 32 ∨ (Rect.block (s := S262144x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S262144x256.size a
  hwx3_1 : ∀ i : grid3.Coords, EltTy.bits .f32 = 32 ∨ (Rect.block (s := S262144x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S262144x256.size a
  hwx3_5 : ∀ i : grid3.Coords, EltTy.bits .f32 = 32 ∨ (Rect.block (s := S262144x256) S2048x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .bf16 = 32 ∨ (Rect.block (s := S256x1) S256x1.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S8192x1.size a
  hwx4_5 : ∀ i : grid4.Coords, EltTy.bits .f32 = 32 ∨ (Rect.block (s := S8192x1) S2048x1.size (cc4_transform_5 i) (hinb4_5 i)).WholeWords (EltTy.packing .f32)

variable [Facts₀]

def scatter_S262144_S1048576x1_S1048576_n_0_0_1 : ScatterDims S262144 S1048576x1 S1048576 where
  updateWindowDims := []
  insertedWindowDims := [0]
  scatterDimsToOperandDims := [0]
  indexVectorDim := 1
  wf := scatter_S262144_S1048576x1_S1048576_n_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def gather_S262144x256_S1048576x1_S1048576x256_1_0_n_n_0_1_1256 : GatherDims S262144x256 S1048576x1 S1048576x256 where
  offsetDims := [1]
  collapsedSliceDims := [0]
  operandBatchingDims := []
  startIndicesBatchingDims := []
  startIndexMap := [0]
  indexVectorDim := 1
  sliceSizes := ![1, 256]
  wf := gather_S262144x256_S1048576x1_S1048576x256_1_0_n_n_0_1_1256_wf
def scatter_S262144x256_S1048576x1_S1048576x256_1_0_0_1 : ScatterDims S262144x256 S1048576x1 S1048576x256 where
  updateWindowDims := [1]
  insertedWindowDims := [0]
  scatterDimsToOperandDims := [0]
  indexVectorDim := 1
  wf := scatter_S262144x256_S1048576x1_S1048576x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S256x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S2048x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S262144x64 : Shape := ⟨2, ![262144, 64]⟩
abbrev S2x1048576 : Shape := ⟨2, ![2, 1048576]⟩
abbrev S262144 : Shape := ⟨1, ![262144]⟩
abbrev S64x256 : Shape := ⟨2, ![64, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x1 : Shape := ⟨2, ![256, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S262144x1 : Shape := ⟨2, ![262144, 1]⟩
abbrev S262144x256 : Shape := ⟨2, ![262144, 256]⟩
abbrev S1x256 : Shape := ⟨2, ![1, 256]⟩
abbrev S1048576x256 : Shape := ⟨2, ![1048576, 256]⟩
abbrev S1x256x256 : Shape := ⟨3, ![1, 256, 256]⟩
abbrev S8192x256 : Shape := ⟨2, ![8192, 256]⟩
abbrev S8192x1 : Shape := ⟨2, ![8192, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S262144x64, .f32⟩
  | 1 => ⟨S2x1048576, .i32⟩
  | 2 => ⟨S262144, .i32⟩
  | 3 => ⟨S64x256, .f32⟩
  | 4 => ⟨S256, .f32⟩
  | 5 => ⟨S3x256x256, .f32⟩
  | 6 => ⟨S3x256, .f32⟩
  | 7 => ⟨S3x256x256, .f32⟩
  | 8 => ⟨S256x256, .f32⟩
  | 9 => ⟨S256, .f32⟩
  | 10 => ⟨S256x1, .f32⟩
  | 11 => ⟨S1, .f32⟩
  | 12 => ⟨S1x1048576, .i32⟩
  | 13 => ⟨S1048576, .i32⟩
  | 14 => ⟨S1x1048576, .i32⟩
  | 15 => ⟨S1048576, .i32⟩
  | 16 => ⟨S_, .f32⟩
  | 17 => ⟨S1048576, .f32⟩
  | 18 => ⟨S_, .f32⟩
  | 19 => ⟨S262144, .f32⟩
  | 20 => ⟨S1048576x1, .i32⟩
  | 21 => ⟨S262144, .f32⟩
  | 22 => ⟨S_, .f32⟩
  | 23 => ⟨S262144, .f32⟩
  | 24 => ⟨S262144, .f32⟩
  | 25 => ⟨S_, .f32⟩
  | 26 => ⟨S262144, .f32⟩
  | 27 => ⟨S262144, .f32⟩
  | 28 => ⟨S262144x1, .f32⟩
  | 29 => ⟨S262144x256, .f32⟩
  | 30 => ⟨S1x256, .f32⟩
  | 31 => ⟨S262144x256, .f32⟩
  | 32 => ⟨S262144x256, .f32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S1048576x1, .i32⟩
  | 41 => ⟨S1048576x256, .f32⟩
  | 42 => ⟨S_, .f32⟩
  | 43 => ⟨S262144x256, .f32⟩
  | 44 => ⟨S1048576x1, .i32⟩
  | 45 => ⟨S262144x256, .f32⟩
  | 46 => ⟨S262144x256, .f32⟩
  | 47 => ⟨S262144x256, .f32⟩
  | 48 => ⟨S1x256x256, .f32⟩
  | 49 => ⟨S256x256, .f32⟩
  | 50 => ⟨S262144x256, .f32⟩
  | 51 => ⟨S1x256, .f32⟩
  | 52 => ⟨S256, .f32⟩
  | 53 => ⟨S1x256, .f32⟩
  | 54 => ⟨S262144x256, .f32⟩
  | 55 => ⟨S262144x256, .f32⟩
  | 56 => ⟨S1x256x256, .f32⟩
  | 57 => ⟨S256x256, .f32⟩
  | 58 => ⟨S262144x256, .f32⟩
  | 59 => ⟨S262144x256, .f32⟩
  | 60 => ⟨S_, .f32⟩
  | 61 => ⟨S_, .f32⟩
  | 62 => ⟨S262144x256, .f32⟩
  | 63 => ⟨S262144x256, .i1⟩
  | 64 => ⟨S_, .f32⟩
  | 65 => ⟨S262144x256, .f32⟩
  | 66 => ⟨S262144x256, .f32⟩
  | 67 => ⟨S262144x256, .f32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S1048576x1, .i32⟩
  | 76 => ⟨S1048576x256, .f32⟩
  | 77 => ⟨S_, .f32⟩
  | 78 => ⟨S262144x256, .f32⟩
  | 79 => ⟨S1048576x1, .i32⟩
  | 80 => ⟨S262144x256, .f32⟩
  | 81 => ⟨S262144x256, .f32⟩
  | 82 => ⟨S262144x256, .f32⟩
  | 83 => ⟨S1x256x256, .f32⟩
  | 84 => ⟨S256x256, .f32⟩
  | 85 => ⟨S262144x256, .f32⟩
  | 86 => ⟨S1x256, .f32⟩
  | 87 => ⟨S256, .f32⟩
  | 88 => ⟨S1x256, .f32⟩
  | 89 => ⟨S262144x256, .f32⟩
  | 90 => ⟨S262144x256, .f32⟩
  | 91 => ⟨S1x256x256, .f32⟩
  | 92 => ⟨S256x256, .f32⟩
  | 93 => ⟨S262144x256, .f32⟩
  | 94 => ⟨S262144x256, .f32⟩
  | 95 => ⟨S_, .f32⟩
  | 96 => ⟨S_, .f32⟩
  | 97 => ⟨S262144x256, .f32⟩
  | 98 => ⟨S262144x256, .i1⟩
  | 99 => ⟨S_, .f32⟩
  | 100 => ⟨S262144x256, .f32⟩
  | 101 => ⟨S262144x256, .f32⟩
  | 102 => ⟨S262144x256, .f32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i32⟩
  | 109 => ⟨S1048576, .i32⟩
  | 110 => ⟨S1048576x1, .i32⟩
  | 111 => ⟨S1048576x256, .f32⟩
  | 112 => ⟨S_, .f32⟩
  | 113 => ⟨S262144x256, .f32⟩
  | 114 => ⟨S1048576x1, .i32⟩
  | 115 => ⟨S262144x256, .f32⟩
  | 116 => ⟨S262144x256, .f32⟩
  | 117 => ⟨S262144x256, .f32⟩
  | 118 => ⟨S1x256x256, .f32⟩
  | 119 => ⟨S256x256, .f32⟩
  | 120 => ⟨S262144x256, .f32⟩
  | 121 => ⟨S1x256, .f32⟩
  | 122 => ⟨S256, .f32⟩
  | 123 => ⟨S1x256, .f32⟩
  | 124 => ⟨S262144x256, .f32⟩
  | 125 => ⟨S262144x256, .f32⟩
  | 126 => ⟨S1x256x256, .f32⟩
  | 127 => ⟨S256x256, .f32⟩
  | _ => ⟨S262144x64, .f32⟩

abbrev hbmTy0_1 (i : Nat) : BufTy := match i % 128 with
  | 0 => ⟨S262144x256, .f32⟩
  | 1 => ⟨S262144x256, .f32⟩
  | 2 => ⟨S_, .f32⟩
  | 3 => ⟨S8192x256, .f32⟩
  | 4 => ⟨S262144x1, .i32⟩
  | 5 => ⟨S8192x256, .f32⟩
  | 6 => ⟨S8192x256, .f32⟩
  | 7 => ⟨S1x256, .f32⟩
  | 8 => ⟨S8192x256, .f32⟩
  | 9 => ⟨S8192x256, .f32⟩
  | 10 => ⟨S_, .f32⟩
  | 11 => ⟨S_, .f32⟩
  | 12 => ⟨S8192x256, .f32⟩
  | 13 => ⟨S8192x256, .i1⟩
  | 14 => ⟨S_, .f32⟩
  | 15 => ⟨S8192x256, .f32⟩
  | 16 => ⟨S8192x256, .f32⟩
  | 17 => ⟨S8192x256, .f32⟩
  | 18 => ⟨S8192x1, .f32⟩
  | 19 => ⟨S1x1, .f32⟩
  | 20 => ⟨S8192x1, .f32⟩
  | 21 => ⟨S8192x1, .f32⟩
  | _ => ⟨S262144x64, .f32⟩

abbrev hbmTy (i : Nat) : BufTy := match i / 128 with
  | 0 => hbmTy0_0 i
  | 1 => hbmTy0_1 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_c_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_13 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_14 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S262144 : S_.BroadcastsInDim S262144 (![] : Fin 0 → Fin S262144.rank)
  bcast_S1048576_S1048576x1_0 : S1048576.BroadcastsInDim S1048576x1 (![0] : Fin 1 → Fin S1048576x1.rank)
  bcast_S262144_S262144x1_0 : S262144.BroadcastsInDim S262144x1 (![0] : Fin 1 → Fin S262144x1.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S8192x256 : S_.BroadcastsInDim S8192x256 (![] : Fin 0 → Fin S8192x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S262144_S1048576x1_S1048576_n_0_0_1_wf : ScatterDims.WF S262144 S1048576x1 S1048576 [] [0] [0] 1
  dot_S262144x64_S64x256_S262144x256_1_0_0_1_n_n_wf : DotDims.WF S262144x64 S64x256 S262144x256 [1] [0] [0] [1] [] []
  gather_S262144x256_S1048576x1_S1048576x256_1_0_n_n_0_1_1256_wf : GatherDims.WF S262144x256 S1048576x1 S1048576x256 [1] [0] [] [0] [] 1 ![1, 256]
  scatter_S262144x256_S1048576x1_S1048576x256_1_0_0_1_wf : ScatterDims.WF S262144x256 S1048576x1 S1048576x256 [1] [0] [0] 1
  dot_S262144x256_S256x256_S262144x256_1_0_0_1_n_n_wf : DotDims.WF S262144x256 S256x256 S262144x256 [1] [0] [0] [1] [] []
  scatter_S8192x256_S262144x1_S262144x256_1_0_0_1_wf : ScatterDims.WF S8192x256 S262144x1 S262144x256 [1] [0] [0] 1
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []

variable [Facts₀]

def scatter_S262144_S1048576x1_S1048576_n_0_0_1 : ScatterDims S262144 S1048576x1 S1048576 where
  updateWindowDims := []
  insertedWindowDims := [0]
  scatterDimsToOperandDims := [0]
  indexVectorDim := 1
  wf := scatter_S262144_S1048576x1_S1048576_n_0_0_1_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def gather_S262144x256_S1048576x1_S1048576x256_1_0_n_n_0_1_1256 : GatherDims S262144x256 S1048576x1 S1048576x256 where
  offsetDims := [1]
  collapsedSliceDims := [0]
  operandBatchingDims := []
  startIndicesBatchingDims := []
  startIndexMap := [0]
  indexVectorDim := 1
  sliceSizes := ![1, 256]
  wf := gather_S262144x256_S1048576x1_S1048576x256_1_0_n_n_0_1_1256_wf
def scatter_S262144x256_S1048576x1_S1048576x256_1_0_0_1 : ScatterDims S262144x256 S1048576x1 S1048576x256 where
  updateWindowDims := [1]
  insertedWindowDims := [0]
  scatterDimsToOperandDims := [0]
  indexVectorDim := 1
  wf := scatter_S262144x256_S1048576x1_S1048576x256_1_0_0_1_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Stages.lean ====
/-
  A mean-aggregating graph network, stage by stage, as pure functions of whole arrays.

  The network embeds each node's features by one dense layer, then three times replaces the node states
  by a dense function of the mean of the states of a node's in-neighbours and of the node's own state
  (a slope-0.1 leaky rectifier after the first two), sums the final states per graph, and applies a
  two-layer head.  Every stage below is written over the whole arrays exactly as the host computes it:
  a row gather followed by a scatter-add and a product with the reciprocal of the clamped in-degree for
  the mean, `dot_general` plus a bias row for a dense map, `select (x ≥ 0) x (0.1 · x)` for the rectifier.
  `net` is their composition.  The slope is kept as the value of its binary word and never evaluated.
-/
import proofs.«123895_j50663434223943_1_alg».proof.ReferenceIdeal

noncomputable section

namespace Cert.Stages

open Idealize.ShloMosaic Cert.ReferenceIdeal Cert.ReferenceIdeal.Facts₀

variable {F : FTy → Type} [FloatOps F] [Cert.ReferenceIdeal.Facts]

/-- The contents of an array of shape `S` and element type `e`. -/
abbrev T (F : FTy → Type) (S : Shape) (e : EltTy) : Type := (⟨S, e⟩ : BufTy).Contents (Elt F)

/-! ## The edge table -/

/-- The edges' source nodes: row 0 of the [2, E] edge table. -/
def src (ei : T F S2x1048576 .i32) : T F S1048576 .i32 :=
  shapeCast S1048576 (extractStridedSlice S1x1048576 ![0, 0] ei slices_S2x1048576_S1x1048576_0_0) shapeCasts_S1x1048576_S1048576

/-- The edges' target nodes: row 1 of the edge table. -/
def dst (ei : T F S2x1048576 .i32) : T F S1048576 .i32 :=
  shapeCast S1048576 (extractStridedSlice S1x1048576 ![1, 0] ei slices_S2x1048576_S1x1048576_1_0) shapeCasts_S1x1048576_S1048576

/-- The source nodes as gather indices: a negative index counts from the end (N is added), one index per row. -/
def srcIdx (ei : T F S2x1048576 .i32) : T F S1048576x1 .i32 :=
  broadcastInDim S1048576x1 ![0] bcast_S1048576_S1048576x1_0
    (select (cmpi .slt (src ei) (broadcastInDim S1048576 ![] bcast_S_S1048576 (constantI S_ 32 0#32)))
      (addi (src ei) (broadcastInDim S1048576 ![] bcast_S_S1048576 (constantI S_ 32 262144#32))) (src ei))

/-- The target nodes as scatter indices, one index per row. -/
def dstIdx (ei : T F S2x1048576 .i32) : T F S1048576x1 .i32 :=
  broadcastInDim S1048576x1 ![0] bcast_S1048576_S1048576x1_0 (dst ei)

/-- The reciprocal of each node's in-degree clamped below at one, as an [N, 1] column: the in-degree is the
    scatter-add of a one per edge at the edge's target. -/
def invDeg (ei : T F S2x1048576 .i32) : T F S262144x1 .f32 :=
  broadcastInDim S262144x1 ![0] bcast_S262144_S262144x1_0
    (Host.divf (broadcastInDim S262144 ![] bcast_S_S262144 (constant S_ .f32 0x3F800000#32))
      (maximumf
        (Host.scatterAdd scatter_S262144_S1048576x1_S1048576_n_0_0_1
          (broadcastInDim S262144 ![] bcast_S_S262144 (constant S_ .f32 0x00000000#32)) (dstIdx ei)
          (broadcastInDim S1048576 ![] bcast_S_S1048576 (constant S_ .f32 0x3F800000#32)))
        (broadcastInDim S262144 ![] bcast_S_S262144 (constant S_ .f32 0x3F800000#32))))

/-- The mean over a node's in-neighbours of the rows of `h`: gather the source rows, add them at the targets,
    scale each row by the reciprocal clamped in-degree. -/
def agg (h : T F S262144x256 .f32) (ei : T F S2x1048576 .i32) : T F S262144x256 .f32 :=
  mulf
    (Host.scatterAdd scatter_S262144x256_S1048576x1_S1048576x256_1_0_0_1
      (broadcastInDim S262144x256 ![] bcast_S_S262144x256 (constant S_ .f32 0x00000000#32)) (dstIdx ei)
      (Host.gather gather_S262144x256_S1048576x1_S1048576x256_1_0_n_n_0_1_1256 h (srcIdx ei)))
    (broadcastInDim S262144x256 ![0, 1] bcast_S262144x1_S262144x256_0_1 (invDeg ei))

/-! ## The weights of one layer -/

def wsel0 (w : T F S3x256x256 .f32) : T F S256x256 .f32 :=
  shapeCast S256x256 (extractStridedSlice S1x256x256 ![0, 0, 0] w slices_S3x256x256_S1x256x256_0_0_0) shapeCasts_S1x256x256_S256x256
def wsel1 (w : T F S3x256x256 .f32) : T F S256x256 .f32 :=
  shapeCast S256x256 (extractStridedSlice S1x256x256 ![1, 0, 0] w slices_S3x256x256_S1x256x256_1_0_0) shapeCasts_S1x256x256_S256x256
def wsel2 (w : T F S3x256x256 .f32) : T F S256x256 .f32 :=
  shapeCast S256x256 (extractStridedSlice S1x256x256 ![2, 0, 0] w slices_S3x256x256_S1x256x256_2_0_0) shapeCasts_S1x256x256_S256x256
def bsel0 (b : T F S3x256 .f32) : T F S256 .f32 :=
  shapeCast S256 (extractStridedSlice S1x256 ![0, 0] b slices_S3x256_S1x256_0_0) shapeCasts_S1x256_S256
def bsel1 (b : T F S3x256 .f32) : T F S256 .f32 :=
  shapeCast S256 (extractStridedSlice S1x256 ![1, 0] b slices_S3x256_S1x256_1_0) shapeCasts_S1x256_S256
def bsel2 (b : T F S3x256 .f32) : T F S256 .f32 :=
  shapeCast S256 (extractStridedSlice S1x256 ![2, 0] b slices_S3x256_S1x256_2_0) shapeCasts_S1x256_S256

/-! ## The dense stages -/

/-- The embedding: `x · w + b`, the bias added to every row. -/
def embed (x : T F S262144x64 .f32) (w : T F S64x256 .f32) (b : T F S256 .f32) : T F S262144x256 .f32 :=
  addf (Host.dotGeneral dot_S262144x64_S64x256_S262144x256_1_0_0_1_n_n none x w)
    (broadcastInDim S262144x256 ![0, 1] bcast_S1x256_S262144x256_0_1 (broadcastInDim S1x256 ![1] bcast_S256_S1x256_1 b))

/-- One layer before its activation: `(a · wl + bl) + h · wr`. -/
def lin (a h : T F S262144x256 .f32) (wl : T F S256x256 .f32) (bl : T F S256 .f32) (wr : T F S256x256 .f32) :
    T F S262144x256 .f32 :=
  addf
    (addf (Host.dotGeneral dot_S262144x256_S256x256_S262144x256_1_0_0_1_n_n none a wl)
      (broadcastInDim S262144x256 ![0, 1] bcast_S1x256_S262144x256_0_1 (broadcastInDim S1x256 ![1] bcast_S256_S1x256_1 bl)))
    (Host.dotGeneral dot_S262144x256_S256x256_S262144x256_1_0_0_1_n_n none h wr)

/-- The leaky rectifier on an [N, 256] array: `x` where `x ≥ 0`, else `0.1 · x`. -/
def leaky (x : T F S262144x256 .f32) : T F S262144x256 .f32 :=
  select (cmpf .oge x (broadcastInDim S262144x256 ![] bcast_S_S262144x256 (constant S_ .f32 0x00000000#32))) x
    (mulf (broadcastInDim S262144x256 ![] bcast_S_S262144x256 (constant S_ .f32 0x3DCCCCCD#32)) x)

/-- An activated layer. -/
def layerAct (a h : T F S262144x256 .f32) (wl : T F S256x256 .f32) (bl : T F S256 .f32) (wr : T F S256x256 .f32) :
    T F S262144x256 .f32 :=
  leaky (lin a h wl bl wr)

/-- The per-graph sum of the node states: a scatter-add of the rows at each node's graph. -/
def pool (h : T F S262144x256 .f32) (batch : T F S262144 .i32) : T F S8192x256 .f32 :=
  Host.scatterAdd scatter_S8192x256_S262144x1_S262144x256_1_0_0_1
    (broadcastInDim S8192x256 ![] bcast_S_S8192x256 (constant S_ .f32 0x00000000#32))
    (broadcastInDim S262144x1 ![0] bcast_S262144_S262144x1_0 batch) h

/-- The leaky rectifier on a [G, 256] array. -/
def leakyG (x : T F S8192x256 .f32) : T F S8192x256 .f32 :=
  select (cmpf .oge x (broadcastInDim S8192x256 ![] bcast_S_S8192x256 (constant S_ .f32 0x00000000#32))) x
    (mulf (broadcastInDim S8192x256 ![] bcast_S_S8192x256 (constant S_ .f32 0x3DCCCCCD#32)) x)

/-- The head: `leaky (p · w1 + b1) · w2 + b2`. -/
def head (p : T F S8192x256 .f32) (w1 : T F S256x256 .f32) (b1 : T F S256 .f32) (w2 : T F S256x1 .f32)
    (b2 : T F S1 .f32) : T F S8192x1 .f32 :=
  addf
    (Host.dotGeneral dot_S8192x256_S256x1_S8192x1_1_0_0_1_n_n none
      (leakyG (addf (Host.dotGeneral dot_S8192x256_S256x256_S8192x256_1_0_0_1_n_n none p w1)
        (broadcastInDim S8192x256 ![0, 1] bcast_S1x256_S8192x256_0_1 (broadcastInDim S1x256 ![1] bcast_S256_S1x256_1 b1))))
      w2)
    (broadcastInDim S8192x1 ![0, 1] bcast_S1x1_S8192x1_0_1 (broadcastInDim S1x1 ![1] bcast_S1_S1x1_1 b2))

/-! ## The network -/

/-- The node states after the embedding and each of the three layers. -/
def h0 (x : T F S262144x64 .f32) (ew : T F S64x256 .f32) (eb : T F S256 .f32) : T F S262144x256 .f32 := embed x ew eb
def step0 (h : T F S262144x256 .f32) (ei : T F S2x1048576 .i32) (lw : T F S3x256x256 .f32) (lb : T F S3x256 .f32)
    (rw : T F S3x256x256 .f32) : T F S262144x256 .f32 :=
  layerAct (agg h ei) h (wsel0 lw) (bsel0 lb) (wsel0 rw)
def step1 (h : T F S262144x256 .f32) (ei : T F S2x1048576 .i32) (lw : T F S3x256x256 .f32) (lb : T F S3x256 .f32)
    (rw : T F S3x256x256 .f32) : T F S262144x256 .f32 :=
  layerAct (agg h ei) h (wsel1 lw) (bsel1 lb) (wsel1 rw)
def step2 (h : T F S262144x256 .f32) (ei : T F S2x1048576 .i32) (lw : T F S3x256x256 .f32) (lb : T F S3x256 .f32)
    (rw : T F S3x256x256 .f32) : T F S262144x256 .f32 :=
  lin (agg h ei) h (wsel2 lw) (bsel2 lb) (wsel2 rw)

/-- The whole network's [G, 1] result as a function of the twelve argument arrays. -/
def net (x : T F S262144x64 .f32) (ei : T F S2x1048576 .i32) (batch : T F S262144 .i32) (ew : T F S64x256 .f32)
    (eb : T F S256 .f32) (lw : T F S3x256x256 .f32) (lb : T F S3x256 .f32) (rw : T F S3x256x256 .f32)
    (w1 : T F S256x256 .f32) (b1 : T F S256 .f32) (w2 : T F S256x1 .f32) (b2 : T F S1 .f32) : T F S8192x1 .f32 :=
  head (pool (step2 (step1 (step0 (h0 x ew eb) ei lw lb rw) ei lw lb rw) ei lw lb rw) batch) w1 b1 w2 b2

end Cert.Stages

end
-- ==== Proof.KernelFold.lean ====
/-
  What the idealized kernel program's result buffer holds at the end, as a function of the argument arrays.

  Each pipelined region rewrites exactly one buffer: its output array, which ends at the stage's function of the
  region's input arrays as the region found them; its input arrays end as it found them and it touches nothing
  else.  So the buffer contents at the last boundary are computed by walking the program backwards from the result
  buffer: through a region to its input arrays at the region's entry, through a host operation to its operands
  before it, down to the launch memory.  The walk ends at the network function of the twelve argument arrays:
  the kernel program's host operations are the reference's own gathers, scatter-adds and slices, the copies of the
  weights in a narrower float format are the weights themselves on the extended reals, and each region is one
  dense stage.
-/
import proofs.«123895_j50663434223943_1_alg».proof.Proof.Gen.KernelIdeal.Frame
import proofs.«123895_j50663434223943_1_alg».proof.Proof.Stages
import Idealize.ShloMosaic.Lib.StableHlo.Run
import Idealize.ShloMosaic.PureOps.Ideal

set_option maxRecDepth 16384

noncomputable section

namespace Cert.KernelIdeal.Fold

open Idealize.ShloMosaic Idealize.ShloMosaic.StableHlo Idealize.ShloMosaic.TcCoe Idealize.SL.Sem
open Idealize.ShloMosaic.Pipeline (Dat)
open Cert.KernelIdeal Cert.KernelIdeal.Gen

variable [Cert.ReferenceIdeal.Facts]

/-- The TensorCore's buffer contents when a region is entered. -/
abbrev Entry : Type := (c : Dev nD) → (b : Ref sig .tc) → Buf (Elt Ideal) ((c : Thread nD τ).loc b)

variable (m : (ℓ : Loc nD τ sig) → Buf (Elt Ideal) ℓ) (ρ : Dev nD → PrngReg)

/-! ## Region 0 -/

section
variable (hf0 : ∀ (V : Entry) (c : Dev nD), (dat0 (F := Ideal) V c).arrAt 3 cfg0.N = Cert.Stages.embed (F := Ideal) (V c main_arg0) (V c main_v13) (V c main_arg4))
include hf0

/-- Region 0's output array ends at the stage's function of its input arrays at the region's entry. -/
theorem W2_out (c : Dev nD) :
    W2 m ρ c (Proc.devRef .tc main_v14)
      = Cert.Stages.embed (F := Ideal) (W1 m ρ c (Proc.devRef .tc main_arg0)) (W1 m ρ c (Proc.devRef .tc main_v13)) (W1 m ρ c (Proc.devRef .tc main_arg4)) :=
  (W2_arr m ρ c 3).trans (hf0 (V1 m ρ) c)
end

/-- Region 0 leaves every other buffer as it found it: an input array through its window, the rest untouched. -/
theorem W2_oth (c : Dev nD) (b : Ref sig .tc) (hb : b ≠ main_v14) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd rfl hb
  · exact W2_of_ne m ρ c b (fun w e => h ⟨w, e⟩)

/-! ## Region 1 -/

section
variable (hf1 : ∀ (V : Entry) (c : Dev nD), (dat1 (F := Ideal) V c).arrAt 5 cfg1.N = Cert.Stages.layerAct (F := Ideal) (V c main_v28) (V c main_v14) (V c main_v30) (V c main_v32) (V c main_v34))
include hf1

/-- Region 1's output array ends at the stage's function of its input arrays at the region's entry. -/
theorem W4_out (c : Dev nD) :
    W4 m ρ c (Proc.devRef .tc main_v35)
      = Cert.Stages.layerAct (F := Ideal) (W3 m ρ c (Proc.devRef .tc main_v28)) (W3 m ρ c (Proc.devRef .tc main_v14)) (W3 m ρ c (Proc.devRef .tc main_v30)) (W3 m ρ c (Proc.devRef .tc main_v32)) (W3 m ρ c (Proc.devRef .tc main_v34)) :=
  (W4_arr m ρ c 5).trans (hf1 (V3 m ρ) c)
end

/-- Region 1 leaves every other buffer as it found it: an input array through its window, the rest untouched. -/
theorem W4_oth (c : Dev nD) (b : Ref sig .tc) (hb : b ≠ main_v35) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact absurd rfl hb
  · exact W4_of_ne m ρ c b (fun w e => h ⟨w, e⟩)

/-! ## Region 2 -/

section
variable (hf2 : ∀ (V : Entry) (c : Dev nD), (dat2 (F := Ideal) V c).arrAt 5 cfg2.N = Cert.Stages.layerAct (F := Ideal) (V c main_v47) (V c main_v35) (V c main_v49) (V c main_v51) (V c main_v53))
include hf2

/-- Region 2's output array ends at the stage's function of its input arrays at the region's entry. -/
theorem W6_out (c : Dev nD) :
    W6 m ρ c (Proc.devRef .tc main_v54)
      = Cert.Stages.layerAct (F := Ideal) (W5 m ρ c (Proc.devRef .tc main_v47)) (W5 m ρ c (Proc.devRef .tc main_v35)) (W5 m ρ c (Proc.devRef .tc main_v49)) (W5 m ρ c (Proc.devRef .tc main_v51)) (W5 m ρ c (Proc.devRef .tc main_v53)) :=
  (W6_arr m ρ c 5).trans (hf2 (V5 m ρ) c)
end

/-- Region 2 leaves every other buffer as it found it: an input array through its window, the rest untouched. -/
theorem W6_oth (c : Dev nD) (b : Ref sig .tc) (hb : b ≠ main_v54) :
    W6 m ρ c (Proc.devRef .tc b) = W5 m ρ c (Proc.devRef .tc b) := by
  by_cases h : ∃ w, Pipeline.arrRef spec2 w = b
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact ((dat2 (V5 m ρ) c).arrAt_in 3 rfl _).trans (A_eq2 (V5 m ρ) c 3)
    | ⟨4, _⟩ => exact ((dat2 (V5 m ρ) c).arrAt_in 4 rfl _).trans (A_eq2 (V5 m ρ) c 4)
    | ⟨5, _⟩ => exact absurd rfl hb
  · exact W6_of_ne m ρ c b (fun w e => h ⟨w, e⟩)

/-! ## Region 3 -/

section
variable (hf3 : ∀ (V : Entry) (c : Dev nD), (dat3 (F := Ideal) V c).arrAt 5 cfg3.N = Cert.Stages.lin (F := Ideal) (V c main_v66) (V c main_v54) (V c main_v68) (V c main_v70) (V c main_v72))
include hf3

/-- Region 3's output array ends at the stage's function of its input arrays at the region's entry. -/
theorem W8_out (c : Dev nD) :
    W8 m ρ c (Proc.devRef .tc main_v73)
      = Cert.Stages.lin (F := Ideal) (W7 m ρ c (Proc.devRef .tc main_v66)) (W7 m ρ c (Proc.devRef .tc main_v54)) (W7 m ρ c (Proc.devRef .tc main_v68)) (W7 m ρ c (Proc.devRef .tc main_v70)) (W7 m ρ c (Proc.devRef .tc main_v72)) :=
  (W8_arr m ρ c 5).trans (hf3 (V7 m ρ) c)
end

/-- Region 3 leaves every other buffer as it found it: an input array through its window, the rest untouched. -/
theorem W8_oth (c : Dev nD) (b : Ref sig .tc) (hb : b ≠ main_v73) :
    W8 m ρ c (Proc.devRef .tc b) = W7 m ρ c (Proc.devRef .tc b) := by
  by_cases h : ∃ w, Pipeline.arrRef spec3 w = b
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact ((dat3 (V7 m ρ) c).arrAt_in 3 rfl _).trans (A_eq3 (V7 m ρ) c 3)
    | ⟨4, _⟩ => exact ((dat3 (V7 m ρ) c).arrAt_in 4 rfl _).trans (A_eq3 (V7 m ρ) c 4)
    | ⟨5, _⟩ => exact absurd rfl hb
  · exact W8_of_ne m ρ c b (fun w e => h ⟨w, e⟩)

/-! ## Region 4 -/

section
variable (hf4 : ∀ (V : Entry) (c : Dev nD), (dat4 (F := Ideal) V c).arrAt 5 cfg4.N = Cert.Stages.head (F := Ideal) (V c main_v76) (V c main_v77) (V c main_arg9) (V c main_v78) (V c main_arg11))
include hf4

/-- Region 4's output array ends at the stage's function of its input arrays at the region's entry. -/
theorem W10_out (c : Dev nD) :
    W10 m ρ c (Proc.devRef .tc main_v79)
      = Cert.Stages.head (F := Ideal) (W9 m ρ c (Proc.devRef .tc main_v76)) (W9 m ρ c (Proc.devRef .tc main_v77)) (W9 m ρ c (Proc.devRef .tc main_arg9)) (W9 m ρ c (Proc.devRef .tc main_v78)) (W9 m ρ c (Proc.devRef .tc main_arg11)) :=
  (W10_arr m ρ c 5).trans (hf4 (V9 m ρ) c)
end

/-- Region 4 leaves every other buffer as it found it: an input array through its window, the rest untouched. -/
theorem W10_oth (c : Dev nD) (b : Ref sig .tc) (hb : b ≠ main_v79) :
    W10 m ρ c (Proc.devRef .tc b) = W9 m ρ c (Proc.devRef .tc b) := by
  by_cases h : ∃ w, Pipeline.arrRef spec4 w = b
  · obtain ⟨w, rfl⟩ := h
    rw [W10_arr]
    match w with
    | ⟨0, _⟩ => exact ((dat4 (V9 m ρ) c).arrAt_in 0 rfl _).trans (A_eq4 (V9 m ρ) c 0)
    | ⟨1, _⟩ => exact ((dat4 (V9 m ρ) c).arrAt_in 1 rfl _).trans (A_eq4 (V9 m ρ) c 1)
    | ⟨2, _⟩ => exact ((dat4 (V9 m ρ) c).arrAt_in 2 rfl _).trans (A_eq4 (V9 m ρ) c 2)
    | ⟨3, _⟩ => exact ((dat4 (V9 m ρ) c).arrAt_in 3 rfl _).trans (A_eq4 (V9 m ρ) c 3)
    | ⟨4, _⟩ => exact ((dat4 (V9 m ρ) c).arrAt_in 4 rfl _).trans (A_eq4 (V9 m ρ) c 4)
    | ⟨5, _⟩ => exact absurd rfl hb
  · exact W10_of_ne m ρ c b (fun w e => h ⟨w, e⟩)

/-! ## The walk, one boundary at a time

At each region's exit the node states are the previous states put through one stage.  The buffers a later stage
reads that were computed long before it — the two rows of the edge table, the reciprocal in-degrees, the copies of
the weights — are walked back through every region and stretch in between to the launch memory. -/

section
variable (hf0 : ∀ (V : Entry) (c : Dev nD), (dat0 (F := Ideal) V c).arrAt 3 cfg0.N = Cert.Stages.embed (F := Ideal) (V c main_arg0) (V c main_v13) (V c main_arg4))
  (hf1 : ∀ (V : Entry) (c : Dev nD), (dat1 (F := Ideal) V c).arrAt 5 cfg1.N = Cert.Stages.layerAct (F := Ideal) (V c main_v28) (V c main_v14) (V c main_v30) (V c main_v32) (V c main_v34))
  (hf2 : ∀ (V : Entry) (c : Dev nD), (dat2 (F := Ideal) V c).arrAt 5 cfg2.N = Cert.Stages.layerAct (F := Ideal) (V c main_v47) (V c main_v35) (V c main_v49) (V c main_v51) (V c main_v53))
  (hf3 : ∀ (V : Entry) (c : Dev nD), (dat3 (F := Ideal) V c).arrAt 5 cfg3.N = Cert.Stages.lin (F := Ideal) (V c main_v66) (V c main_v54) (V c main_v68) (V c main_v70) (V c main_v72))
  (hf4 : ∀ (V : Entry) (c : Dev nD), (dat4 (F := Ideal) V c).arrAt 5 cfg4.N = Cert.Stages.head (F := Ideal) (V c main_v76) (V c main_v77) (V c main_arg9) (V c main_v78) (V c main_arg11))

attribute [local irreducible] Host.gather Host.scatterAdd in
set_option maxHeartbeats 1000000 in
include hf0 in
/-- After region 0: the embedding of the node features. -/
theorem states0 (c : Dev nD) :
    W2 m ρ c (Proc.devRef .tc main_v14) = Cert.Stages.h0 (F := Ideal) (m ((c.tc : Thread nD τ).loc main_arg0)) (m ((c.tc : Thread nD τ).loc main_arg3)) (m ((c.tc : Thread nD τ).loc main_arg4)) := by
  rw [W2_out m ρ hf0 c]
  simp (disch := decide) only [W1, hostOps0, after_cons, after_nil,
    nullary_result', unary_result', binary_result', ternary_result', quaternary_result', reshape_result',
    nullary_result_ne', unary_result_ne', binary_result_ne', ternary_result_ne', quaternary_result_ne', reshape_result_ne']
  rfl

attribute [local irreducible] Host.gather Host.scatterAdd in
set_option maxHeartbeats 2000000 in
include hf1 in
/-- After region 1: the first layer applied to the embedded states. -/
theorem states1 (c : Dev nD) :
    W4 m ρ c (Proc.devRef .tc main_v35)
      = Cert.Stages.step0 (F := Ideal) (W2 m ρ c (Proc.devRef .tc main_v14)) (m ((c.tc : Thread nD τ).loc main_arg1)) (m ((c.tc : Thread nD τ).loc main_arg5)) (m ((c.tc : Thread nD τ).loc main_arg6)) (m ((c.tc : Thread nD τ).loc main_arg7)) := by
  rw [W4_out m ρ hf1 c]
  simp (disch := decide) only [W3, W1, hostOps0, hostOps1, after_cons, after_nil,
    nullary_result', unary_result', binary_result', ternary_result', quaternary_result', reshape_result',
    nullary_result_ne', unary_result_ne', binary_result_ne', ternary_result_ne', quaternary_result_ne', reshape_result_ne',
    W2_oth m ρ]
  rfl

attribute [local irreducible] Host.gather Host.scatterAdd in
set_option maxHeartbeats 2000000 in
include hf2 in
/-- After region 2: the second layer. -/
theorem states2 (c : Dev nD) :
    W6 m ρ c (Proc.devRef .tc main_v54)
      = Cert.Stages.step1 (F := Ideal) (W4 m ρ c (Proc.devRef .tc main_v35)) (m ((c.tc : Thread nD τ).loc main_arg1)) (m ((c.tc : Thread nD τ).loc main_arg5)) (m ((c.tc : Thread nD τ).loc main_arg6)) (m ((c.tc : Thread nD τ).loc main_arg7)) := by
  rw [W6_out m ρ hf2 c]
  simp (disch := decide) only [W5, W3, W1, hostOps0, hostOps1, hostOps2, after_cons, after_nil,
    nullary_result', unary_result', binary_result', ternary_result', quaternary_result', reshape_result',
    nullary_result_ne', unary_result_ne', binary_result_ne', ternary_result_ne', quaternary_result_ne', reshape_result_ne',
    W4_oth m ρ, W2_oth m ρ]
  rfl

attribute [local irreducible] Host.gather Host.scatterAdd in
set_option maxHeartbeats 2000000 in
include hf3 in
/-- After region 3: the third layer, without activation. -/
theorem states3 (c : Dev nD) :
    W8 m ρ c (Proc.devRef .tc main_v73)
      = Cert.Stages.step2 (F := Ideal) (W6 m ρ c (Proc.devRef .tc main_v54)) (m ((c.tc : Thread nD τ).loc main_arg1)) (m ((c.tc : Thread nD τ).loc main_arg5)) (m ((c.tc : Thread nD τ).loc main_arg6)) (m ((c.tc : Thread nD τ).loc main_arg7)) := by
  rw [W8_out m ρ hf3 c]
  simp (disch := decide) only [W7, W5, W3, W1, hostOps0, hostOps1, hostOps2, hostOps3, after_cons, after_nil,
    nullary_result', unary_result', binary_result', ternary_result', quaternary_result', reshape_result',
    nullary_result_ne', unary_result_ne', binary_result_ne', ternary_result_ne', quaternary_result_ne', reshape_result_ne',
    W6_oth m ρ, W4_oth m ρ, W2_oth m ρ]
  rfl

attribute [local irreducible] Host.gather Host.scatterAdd in
set_option maxHeartbeats 2000000 in
include hf4 in
/-- After region 4: the head applied to the per-graph sums of the final states. -/
theorem result4 (c : Dev nD) :
    W10 m ρ c (Proc.devRef .tc main_v79)
      = Cert.Stages.head (F := Ideal) (Cert.Stages.pool (F := Ideal) (W8 m ρ c (Proc.devRef .tc main_v73)) (m ((c.tc : Thread nD τ).loc main_arg2)))
          (m ((c.tc : Thread nD τ).loc main_arg8)) (m ((c.tc : Thread nD τ).loc main_arg9)) (m ((c.tc : Thread nD τ).loc main_arg10)) (m ((c.tc : Thread nD τ).loc main_arg11)) := by
  rw [W10_out m ρ hf4 c]
  simp (disch := decide) only [W9, W7, W5, W3, W1, hostOps0, hostOps1, hostOps2, hostOps3, hostOps4, after_cons, after_nil,
    nullary_result', unary_result', binary_result', ternary_result', quaternary_result', reshape_result',
    nullary_result_ne', unary_result_ne', binary_result_ne', ternary_result_ne', quaternary_result_ne', reshape_result_ne',
    W8_oth m ρ, W6_oth m ρ, W4_oth m ρ, W2_oth m ρ]
  rfl

include hf0 hf1 hf2 hf3 hf4 in
/-- The result buffer at the last boundary is the network function of the argument arrays at launch. -/
theorem value (c : Dev nD) :
    W10 m ρ c (Proc.devRef .tc main_v79)
      = Cert.Stages.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [result4 m ρ hf4 c, states3 m ρ hf3 c, states2 m ρ hf2 c, states1 m ρ hf1 c, states0 m ρ hf0 c]
  rfl
end

end Cert.KernelIdeal.Fold

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«123895_j50663434223943_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Region0.lean ====
/-
  The embedding stage of the network, block by block.

  The embedding multiplies the [262144, 64] array of node features by a [64, 256] weight and adds a length-256
  bias to every row.  It is computed in 64 blocks of 4096 rows: block t holds rows 4096·t … 4096·t + 4095 of
  the features, the whole weight and the whole bias, and produces the same rows of the result.  Entry (p, q)
  of a block's result is the sum over k of feature (p, k) times weight (k, q), plus bias q; entry
  (4096·t + p, q) of the whole-array embedding is the same sum over the same row.  The blocks tile the rows,
  row r lying in block r / 4096, so the array the blocks leave is the whole-array embedding.
-/
import proofs.«123895_j50663434223943_1_alg».proof.Proof.Gen.KernelIdeal.Frame
import proofs.«123895_j50663434223943_1_alg».proof.Proof.Stages
import proofs.«123895_j50663434223943_1_alg».proof.Proof.LibDense
import Idealize.ShloMosaic.Lib.Pipeline.Value

noncomputable section

namespace Cert.Region0

open Idealize.ShloMosaic Idealize.ShloMosaic.TcCoe Idealize.SL.Sem Idealize.ShloMosaic.ValueIdx
open Idealize.ShloMosaic.Pipeline (Dat)
open Cert.KernelIdeal Cert.KernelIdeal.Gen Cert.RowOps Cert.Dense

variable [Cert.ReferenceIdeal.Facts]

/-! ## One entry of a block's result, and of the whole-array embedding -/

/-- The block product contracts the features' second axis with the weight's first. -/
theorem plainBlock : IsPlain dot_S4096x64_S64x256_S4096x256_1_0_0_1_n_n := ⟨rfl, rfl, rfl, rfl, rfl, rfl⟩

/-- So does the whole-array product. -/
theorem plainWhole : IsPlain Cert.ReferenceIdeal.dot_S262144x64_S64x256_S262144x256_1_0_0_1_n_n :=
  ⟨rfl, rfl, rfl, rfl, rfl, rfl⟩

/-- Entry (p, q) of a block's result: row p of the block's features against column q of the weight, plus bias q. -/
theorem pay_apply (x0 : Vec Ideal S4096x64 .f32) (x1 : Vec Ideal S64x256 .bf16) (x2 : Vec Ideal S256 .f32)
    (p : Fin 4096) (q : Fin 256) :
    k0_pay1 x0 x1 x2 (ix2 p q) = (∑ k : Fin 64, x0 (ix2 p k) * x1 (ix2 k q)) + x2 (ix1 q) := by
  unfold k0_pay1
  rw [addf_apply, rowBias_apply, shapeCast_self]
  exact congrArg (· + x2 (ix1 q)) (matmul_zero_apply plainBlock none _ x1 p q)

/-- Entry (r, q) of the whole-array embedding: row r of the features against column q of the weight, plus bias q. -/
theorem embed_apply (X : Cert.Stages.T Ideal Cert.ReferenceIdeal.S262144x64 .f32)
    (W : Cert.Stages.T Ideal Cert.ReferenceIdeal.S64x256 .f32) (B : Cert.Stages.T Ideal Cert.ReferenceIdeal.S256 .f32)
    (r : Fin 262144) (q : Fin 256) :
    Cert.Stages.embed X W B (ix2 r q) = (∑ k : Fin 64, X (ix2 r k) * W (ix2 k q)) + B (ix1 q) := by
  unfold Cert.Stages.embed
  rw [addf_apply, hostRowBias_apply]
  exact congrArg (· + B (ix1 q)) (hostDot_apply plainWhole none .single X W r q)

/-- A block's entry (p, q) is the whole-array embedding's entry (4096·n + p, q), when the block's features are
    rows 4096·n … of the array's and its weight and bias are the array's. -/
theorem entry_eq (X : Cert.Stages.T Ideal Cert.ReferenceIdeal.S262144x64 .f32)
    (W : Cert.Stages.T Ideal Cert.ReferenceIdeal.S64x256 .f32) (B : Cert.Stages.T Ideal Cert.ReferenceIdeal.S256 .f32)
    (x0 : Vec Ideal S4096x64 .f32) (x1 : Vec Ideal S64x256 .bf16) (x2 : Vec Ideal S256 .f32) (n : Nat)
    (h0 : ∀ (p : Fin 4096) (k : Fin 64) (r : Fin 262144), r.val = 4096 * n + p.val → x0 (ix2 p k) = X (ix2 r k))
    (h1 : ∀ (k : Fin 64) (q : Fin 256), x1 (ix2 k q) = W (ix2 k q)) (h2 : ∀ q : Fin 256, x2 (ix1 q) = B (ix1 q))
    (y : S4096x256.Idx) (i : S262144x256.Idx) (hi0 : (i 0).val = 4096 * n + (y 0).val) (hi1 : (i 1).val = (y 1).val) :
    k0_pay1 x0 x1 x2 y = Cert.Stages.embed X W B i := by
  obtain ⟨p, q, rfl⟩ : ∃ (p : Fin 4096) (q : Fin 256), y = ix2 p q := ⟨y 0, y 1, eq_ix2 y⟩
  obtain ⟨r, q', rfl⟩ : ∃ (r : Fin 262144) (q' : Fin 256), i = ix2 r q' := ⟨i 0, i 1, eq_ix2 i⟩
  obtain rfl : q' = q := Fin.ext hi1
  rw [pay_apply, embed_apply, h2]
  exact congrArg (· + B (ix1 q')) (Finset.sum_congr rfl fun k _ => by rw [h0 p k r hi0, h1])

/-! ## The blocks -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the features and the result move one block of rows per point, the weight and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The features' block at point t is rows 4096·t … of the array. -/
theorem iblk_x (c : Dev nD) (t : Fin cfg0.N) (p : Fin 4096) (k : Fin 64) (r : Fin 262144)
    (hr : r.val = 4096 * t.val + p.val) :
    (iblk0 V c 0 t : Vec Ideal S4096x64 .f32) (ix2 p k) = (V c main_arg0 : S262144x64.Idx → Elt Ideal .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 64 + 1 * k.val = k.val; rw [e1]; omega

/-- The weight's block at every point is the whole weight. -/
theorem iblk_w (c : Dev nD) (t : Fin cfg0.N) (k : Fin 64) (q : Fin 256) :
    (iblk0 V c 1 t : Vec Ideal S64x256 .bf16) (ix2 k q) = (V c main_v13 : S64x256.Idx → Elt Ideal .bf16) (ix2 k q) := by
  obtain ⟨-, -, e0, e1, -⟩ := idx_facts t
  unfold iblk0
  rw [View.read_apply]
  show V c main_v13 _ = V c main_v13 _
  congr 1
  funext a
  apply Fin.ext
  match a with
  | ⟨0, _⟩ => show win0_1.index t (0 : Fin 2) * 64 + 1 * k.val = k.val; rw [e0]; omega
  | ⟨1, _⟩ => show win0_1.index t (1 : Fin 2) * 256 + 1 * q.val = q.val; rw [e1]; omega

/-- The bias's block at every point is the whole bias. -/
theorem iblk_b (c : Dev nD) (t : Fin cfg0.N) (q : Fin 256) :
    (iblk0 V c 2 t : Vec Ideal S256 .f32) (ix1 q) = (V c main_arg4 : S256.Idx → Elt Ideal .f32) (ix1 q) := by
  obtain ⟨-, -, -, -, e0, -⟩ := idx_facts t
  unfold iblk0
  rw [View.read_apply]
  show V c main_arg4 _ = V c main_arg4 _
  congr 1
  funext a
  apply Fin.ext
  match a with
  | ⟨0, _⟩ => show win0_2.index t (0 : Fin 1) * 256 + 1 * q.val = q.val; rw [e0]; omega

/-- What point t writes back is block t of the whole-array embedding of the arrays the region finds. -/
theorem flushed_eq (c : Dev nD) (t : Fin cfg0.N) :
    (dat0 (F := Ideal) V c).flushed 3 t = ((cfg0.win 3).blk t).view.read (Elt Ideal)
      (Cert.Stages.embed (F := Ideal) (V c main_arg0) (V c main_v13) (V c main_arg4)) := by
  show (cfg0.win 3).cut (grid0.coords t) ((dat0 (F := Ideal) V c).after 3 t) = _
  rw [after0_3]
  unfold out0_3
  rw [View.canon_unit_zero hz2]
  simp only [View.ld_unit_zero (S := S4096x64) hz2, View.ld_unit_zero (S := S64x256) hz2, View.ld_unit_zero (S := S256) hz1]
  obtain ⟨-, -, -, -, -, e0, e1⟩ := idx_facts t
  funext j
  show k0_pay1 (iblk0 V c 0 t) (iblk0 V c 1 t) (iblk0 V c 2 t) ((cfg0.win 3).xinj (grid0.coords t) j)
    = Cert.Stages.embed (F := Ideal) (V c main_arg0) (V c main_v13) (V c main_arg4) (((cfg0.win 3).blk t).view.emb j)
  refine entry_eq (V c main_arg0) (V c main_v13) (V c main_arg4) (iblk0 V c 0 t) (iblk0 V c 1 t) (iblk0 V c 2 t) t.val
    (fun p k r hr => iblk_x V c t p k r hr) (fun k q => iblk_w V c t k q) (fun q => iblk_b V c t q)
    ((cfg0.win 3).xinj (grid0.coords t) j) (((cfg0.win 3).blk t).view.emb j) ?_ ?_
  · show win0_3.index t (0 : Fin 2) * 4096 + 1 * (j 0).val = 4096 * t.val + (j 0).val
    rw [e0]; omega
  · show win0_3.index t (1 : Fin 2) * 256 + 1 * (j 1).val = (j 1).val
    rw [e1]; omega

/-! ## From the blocks to the array -/

/-- An index of the result array is in point t's block iff each coordinate is in the block's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v14).slice (win0_3.rect t)).set ↔ _
  rw [View.set_slice_whole, Rect.mem_set_unit]
  exact Iff.rfl

/-- Row r of the result lies in the block of point r / 4096. -/
theorem cover (i : S262144x256.Idx) :
    ∃ t : Fin cfg0.N, (cfg0.win 3).flush t = true ∧ i ∈ ((cfg0.win 3).blk t).view.set := by
  have hN : cfg0.N = 64 := N_0
  have hi0 : (i 0).val < 262144 := (i 0).isLt
  have hi1 : (i 1).val < 256 := (i 1).isLt
  let t : Fin cfg0.N := ⟨(i 0).val / 4096, by rw [hN]; omega⟩
  have ht : t.val = (i 0).val / 4096 := rfl
  obtain ⟨-, -, -, -, -, e0, e1⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    rw [e0, ht]; omega
  | ⟨1, _⟩ =>
    show win0_3.index t (1 : Fin 2) * 256 ≤ (i 1).val ∧ (i 1).val < win0_3.index t (1 : Fin 2) * 256 + 256
    rw [e1]; omega

/-- The array the embedding region leaves is the whole-array embedding of the arrays it finds. -/
theorem final (c : Dev nD) :
    (dat0 (F := Ideal) V c).arrAt 3 cfg0.N
      = Cert.Stages.embed (F := Ideal) (V c main_arg0) (V c main_v13) (V c main_arg4) :=
  (dat0 (F := Ideal) V c).arrAt_eq_of_cover 3 _ (fun t _ => flushed_eq V c t) cover

end Cert.Region0

end
-- ==== Proof.LibLeakyLayer.lean ====
/-
  One layer of a mean-aggregating graph network, read at one index, on the extended reals.

  A layer takes the aggregated neighbour states a and the node states h, both [M, K] arrays of rows, two
  [K, N] weights wl and wr and a length-N bias bl, and leaves at row r and column c

      ((Σ_k a(r,k) · wl(k,c)) + bl(c)) + Σ_k h(r,k) · wr(k,c),

  optionally passed through the leaky rectifier with slope s: x where x is not negative, s · x elsewhere.
  The entry is the same expression whether the layer is written over whole arrays (the host's matrix
  products, a bias row broadcast over the rows, a comparison with a broadcast zero) or over one block of rows
  (two matrix products into zero accumulators after a change of float format, which is the identity on
  extended reals; the bias viewed as one row and repeated; a comparison with a splat zero).  The block form
  tests x > 0 where the array form tests x ≥ 0: the two rectifiers differ only at x = 0, where s · 0 = 0 = x.
  The slope is kept as the value of its binary word and never evaluated.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«123895_j50663434223943_1_alg».proof.Proof.LibRowOps
import proofs.«123895_j50663434223943_1_alg».proof.Proof.LibDense

noncomputable section

namespace Cert.LayerMath

open Idealize.ShloMosaic Idealize.ShloMosaic.ValueIdx Cert.RowOps Cert.Dense

/-- The rectifier's slope: the value of the f32 word 0x3DCCCCCD. -/
abbrev slope : EReal := Ideal.ofBits .f32 0x3DCCCCCD#32

/-- Entry (r, c) of a layer before its activation. -/
def linAt {M K N : Nat} (a h : (⟨2, ![M, K]⟩ : Shape).Idx → EReal) (wl wr : (⟨2, ![K, N]⟩ : Shape).Idx → EReal)
    (bl : (⟨1, ![N]⟩ : Shape).Idx → EReal) (r : Fin M) (c : Fin N) : EReal :=
  ((∑ k : Fin K, a (ix2 r k) * wl (ix2 k c)) + bl (ix1 c)) + ∑ k : Fin K, h (ix2 r k) * wr (ix2 k c)

/-- The leaky rectifier on one extended real. -/
def leakyAt (x : EReal) : EReal := if 0 ≤ x then x else slope * x

/-! ## The rectifier, in its two spellings -/

/-- Selecting on the bit of a decided proposition is the `if`. -/
theorem select_ofBool {α : Type} (P : Prop) [Decidable P] (a b : α) :
    Scalar.select (BitVec.ofBool (decide P)) a b = if P then a else b := by
  by_cases h : P
  · rw [if_pos h, decide_eq_true h]; exact select_one a b
  · rw [if_neg h, decide_eq_false h]; exact select_zero a b

/-- The strict test gives the same rectifier: the two differ only at zero, where both branches are zero. -/
theorem leaky_strict (x : EReal) : (if 0 < x then x else slope * x) = leakyAt x := by
  unfold leakyAt
  by_cases h : 0 < x
  · rw [if_pos h, if_pos h.le]
  · rw [if_neg h]
    by_cases h' : 0 ≤ x
    · have hx : x = 0 := le_antisymm (not_lt.mp h) h'
      rw [if_pos h', hx, mul_zero]
    · rw [if_neg h']

/-- The array form: `x` where `x ≥ 0` against a broadcast zero, else the broadcast slope times `x`. -/
theorem hostLeaky_apply {s : Shape} (x : FVec Ideal s .f32) (h0 : (⟨0, ![]⟩ : Shape).BroadcastsInDim s ![]) (i : s.Idx) :
    select (cmpf .oge x (broadcastInDim s ![] h0 (constant (F := Ideal) ⟨0, ![]⟩ .f32 0x00000000#32))) x
        (mulf (broadcastInDim s ![] h0 (constant (F := Ideal) ⟨0, ![]⟩ .f32 0x3DCCCCCD#32)) x) i
      = leakyAt (x i) := by
  rw [select_apply, cmpf_apply, mulf_apply, broadcastInDim_scalar_apply, broadcastInDim_scalar_apply, constant_apply,
    constant_apply, Ideal.cmpf_def]
  unfold Ideal.cmp
  rw [Ideal.ofBits_zero_f32]
  exact select_ofBool _ _ _

/-- The block form: `x` where `x > 0` against a splat zero, else the splat slope times `x`. -/
theorem blockLeaky_apply {s : Shape} (x : FVec Ideal s .f32) (i : s.Idx) :
    select (cmpf .ogt x (broadcast s (Scalar.ofBits (F := Ideal) .f32 0x00000000#32))) x
        (mulf (broadcast s (Scalar.ofBits (F := Ideal) .f32 0x3DCCCCCD#32)) x) i
      = leakyAt (x i) := by
  rw [select_apply, cmpf_apply, mulf_apply, broadcast_apply, broadcast_apply, Ideal.cmpf_def]
  unfold Ideal.cmp
  refine Eq.trans ?_ (leaky_strict (x i))
  refine (select_ofBool _ _ _).trans ?_
  show (if Ideal.ofBits .f32 0x00000000#32 < x i then x i else slope * x i) = _
  rw [Ideal.ofBits_zero_f32]

/-! ## The layer before its activation -/

section Lin

variable {M K N : Nat} {d : DotDims ⟨2, ![M, K]⟩ ⟨2, ![K, N]⟩ ⟨2, ![M, N]⟩}

/-- Over whole arrays: two matrix products, the bias row added to the first. -/
theorem hostLin_apply (hd : IsPlain d) (A H : FVec Ideal ⟨2, ![M, K]⟩ .f32) (Wl Wr : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral d none A Wl)
        (broadcastInDim ⟨2, ![M, N]⟩ ![0, 1] h2 (broadcastInDim ⟨2, ![1, N]⟩ ![1] h1 B)))
        (Host.dotGeneral d none H Wr) (ix2 r c)
      = linAt A H Wl Wr B r c := by
  rw [addf_apply, addf_apply, hostRowBias_apply]
  unfold linAt
  exact congrArg₂ (fun s t => s + B (ix1 c) + t) (hostDot_apply hd none .single A Wl r c)
    (hostDot_apply hd none .single H Wr r c)

/-- Over one block of rows: the rows and the weights pass through a cast to their own shape and the rows through
    a change of float format, both the identity; each product goes into a zero accumulator. -/
theorem blockLin_apply (hd : IsPlain d) (x0 x1 : FVec Ideal ⟨2, ![M, K]⟩ .f32) (wl wr : FVec Ideal ⟨2, ![K, N]⟩ .bf16)
    (bl : FVec Ideal ⟨1, ![N]⟩ .f32)
    (hx : (⟨2, ![M, K]⟩ : Shape).ShapeCasts ⟨2, ![M, K]⟩) (hw : (⟨2, ![K, N]⟩ : Shape).ShapeCasts ⟨2, ![K, N]⟩)
    (hlt : FTy.bits .bf16 < FTy.bits .f32)
    (hb0 : (⟨1, ![N]⟩ : Shape).ShapeCasts ⟨1, ![N]⟩) (hs : (⟨1, ![N]⟩ : Shape).ShapeCasts ⟨2, ![1, N]⟩)
    (hb : (⟨2, ![1, N]⟩ : Shape).Broadcasts ⟨2, ![M, N]⟩) (p : Fin M) (q : Fin N) :
    addf (addf (matmul d none (truncf .bf16 (shapeCast ⟨2, ![M, K]⟩ x0 hx) hlt) (shapeCast ⟨2, ![K, N]⟩ wl hw)
          (constant ⟨2, ![M, N]⟩ .f32 0x00000000#32))
        (broadcastTo ⟨2, ![M, N]⟩ (shapeCast ⟨2, ![1, N]⟩ (shapeCast ⟨1, ![N]⟩ bl hb0) hs) hb))
        (matmul d none (truncf .bf16 (shapeCast ⟨2, ![M, K]⟩ x1 hx) hlt) (shapeCast ⟨2, ![K, N]⟩ wr hw)
          (constant ⟨2, ![M, N]⟩ .f32 0x00000000#32)) (ix2 p q)
      = linAt x0 x1 wl wr bl p q := by
  rw [shapeCast_self x0, shapeCast_self x1, shapeCast_self wl, shapeCast_self wr, shapeCast_self bl,
    addf_apply, addf_apply, rowBias_apply]
  unfold linAt
  exact congrArg₂ (fun s t => s + bl (ix1 q) + t) (matmul_zero_apply hd none (truncf .bf16 x0 hlt) wl p q)
    (matmul_zero_apply hd none (truncf .bf16 x1 hlt) wr p q)

/-- The block form with the rectifier after it. -/
theorem blockLayer_apply (hd : IsPlain d) (x0 x1 : FVec Ideal ⟨2, ![M, K]⟩ .f32) (wl wr : FVec Ideal ⟨2, ![K, N]⟩ .bf16)
    (bl : FVec Ideal ⟨1, ![N]⟩ .f32)
    (hx : (⟨2, ![M, K]⟩ : Shape).ShapeCasts ⟨2, ![M, K]⟩) (hw : (⟨2, ![K, N]⟩ : Shape).ShapeCasts ⟨2, ![K, N]⟩)
    (hlt : FTy.bits .bf16 < FTy.bits .f32)
    (hb0 : (⟨1, ![N]⟩ : Shape).ShapeCasts ⟨1, ![N]⟩) (hs : (⟨1, ![N]⟩ : Shape).ShapeCasts ⟨2, ![1, N]⟩)
    (hb : (⟨2, ![1, N]⟩ : Shape).Broadcasts ⟨2, ![M, N]⟩) (p : Fin M) (q : Fin N) :
    select (cmpf .ogt
        (addf (addf (matmul d none (truncf .bf16 (shapeCast ⟨2, ![M, K]⟩ x0 hx) hlt) (shapeCast ⟨2, ![K, N]⟩ wl hw)
              (constant ⟨2, ![M, N]⟩ .f32 0x00000000#32))
            (broadcastTo ⟨2, ![M, N]⟩ (shapeCast ⟨2, ![1, N]⟩ (shapeCast ⟨1, ![N]⟩ bl hb0) hs) hb))
          (matmul d none (truncf .bf16 (shapeCast ⟨2, ![M, K]⟩ x1 hx) hlt) (shapeCast ⟨2, ![K, N]⟩ wr hw)
            (constant ⟨2, ![M, N]⟩ .f32 0x00000000#32)))
        (broadcast ⟨2, ![M, N]⟩ (Scalar.ofBits (F := Ideal) .f32 0x00000000#32)))
      (addf (addf (matmul d none (truncf .bf16 (shapeCast ⟨2, ![M, K]⟩ x0 hx) hlt) (shapeCast ⟨2, ![K, N]⟩ wl hw)
            (constant ⟨2, ![M, N]⟩ .f32 0x00000000#32))
          (broadcastTo ⟨2, ![M, N]⟩ (shapeCast ⟨2, ![1, N]⟩ (shapeCast ⟨1, ![N]⟩ bl hb0) hs) hb))
        (matmul d none (truncf .bf16 (shapeCast ⟨2, ![M, K]⟩ x1 hx) hlt) (shapeCast ⟨2, ![K, N]⟩ wr hw)
          (constant ⟨2, ![M, N]⟩ .f32 0x00000000#32)))
      (mulf (broadcast ⟨2, ![M, N]⟩ (Scalar.ofBits (F := Ideal) .f32 0x3DCCCCCD#32))
        (addf (addf (matmul d none (truncf .bf16 (shapeCast ⟨2, ![M, K]⟩ x0 hx) hlt) (shapeCast ⟨2, ![K, N]⟩ wl hw)
              (constant ⟨2, ![M, N]⟩ .f32 0x00000000#32))
            (broadcastTo ⟨2, ![M, N]⟩ (shapeCast ⟨2, ![1, N]⟩ (shapeCast ⟨1, ![N]⟩ bl hb0) hs) hb))
          (matmul d none (truncf .bf16 (shapeCast ⟨2, ![M, K]⟩ x1 hx) hlt) (shapeCast ⟨2, ![K, N]⟩ wr hw)
            (constant ⟨2, ![M, N]⟩ .f32 0x00000000#32)))) (ix2 p q)
      = leakyAt (linAt x0 x1 wl wr bl p q) :=
  (blockLeaky_apply _ (ix2 p q)).trans (congrArg leakyAt (blockLin_apply hd x0 x1 wl wr bl hx hw hlt hb0 hs hb p q))

end Lin

end Cert.LayerMath

end
-- ==== Proof.LayerSpec.lean ====
/-
  The layer stages of the network's specification, read at one index.

  The specification writes a layer over whole [N, 256] arrays in the host's spelling.  At row r and column c
  the layer before its activation is ((Σ_k a(r,k) · wl(k,c)) + bl(c)) + Σ_k h(r,k) · wr(k,c), and the activated
  layer is the leaky rectifier of that entry.
-/
import proofs.«123895_j50663434223943_1_alg».proof.Proof.Stages
import proofs.«123895_j50663434223943_1_alg».proof.Proof.LibLeakyLayer

noncomputable section

namespace Cert.LayerSpec

open Idealize.ShloMosaic Idealize.ShloMosaic.ValueIdx Cert.RowOps Cert.LayerMath Cert.Stages
open Cert.ReferenceIdeal Cert.ReferenceIdeal.Facts₀

variable [Cert.ReferenceIdeal.Facts]

/-- The host's product of an [N, 256] array with a [256, 256] weight contracts the array's second axis with the
    weight's first. -/
theorem plain : IsPlain dot_S262144x256_S256x256_S262144x256_1_0_0_1_n_n := ⟨rfl, rfl, rfl, rfl, rfl, rfl⟩

/-- The layer before its activation, at (r, c). -/
theorem lin_apply (a h : T Ideal S262144x256 .f32) (wl : T Ideal S256x256 .f32) (bl : T Ideal S256 .f32)
    (wr : T Ideal S256x256 .f32) (r : Fin 262144) (c : Fin 256) :
    Stages.lin (F := Ideal) a h wl bl wr (ix2 r c) = linAt a h wl wr bl r c := by
  unfold Stages.lin
  exact hostLin_apply plain a h wl wr bl bcast_S256_S1x256_1 bcast_S1x256_S262144x256_0_1 r c

/-- The activated layer, at (r, c). -/
theorem layerAct_apply (a h : T Ideal S262144x256 .f32) (wl : T Ideal S256x256 .f32) (bl : T Ideal S256 .f32)
    (wr : T Ideal S256x256 .f32) (r : Fin 262144) (c : Fin 256) :
    Stages.layerAct (F := Ideal) a h wl bl wr (ix2 r c) = leakyAt (linAt a h wl wr bl r c) := by
  unfold Stages.layerAct Stages.leaky
  exact (hostLeaky_apply _ bcast_S_S262144x256 (ix2 r c)).trans (congrArg leakyAt (lin_apply a h wl bl wr r c))

end Cert.LayerSpec

end
-- ==== Proof.Region1.lean ====
/-
  The first layer's pipelined region leaves its output array at the layer stage of its five input arrays.

  The region walks the [262144, 256] arrays a (aggregated neighbour states) and h (node states) in 128 blocks of
  2048 rows; the two [256, 256] weights and the length-256 bias are one block each, the same at every point.
  At point t the body reads rows 2048·t … 2048·t + 2047 of a and of h and stores, at row p and column c of the
  output's block, the leaky rectifier of ((Σ_k a(r,k) · wl(k,c)) + bl(c)) + Σ_k h(r,k) · wr(k,c)
  with r = 2048·t + p — the entry of the whole-array layer stage at (r, c).  So what point t writes back is block
  t of that stage, and since row r lies in the block of point r / 2048 the blocks cover the output array, which
  therefore ends holding the stage, whatever the arrays held when the region was entered.
-/
import proofs.«123895_j50663434223943_1_alg».proof.Proof.Gen.KernelIdeal.Frame
import proofs.«123895_j50663434223943_1_alg».proof.Proof.LayerSpec
import Idealize.ShloMosaic.Lib.Pipeline.Value

noncomputable section

namespace Cert.Region1

open Cert.KernelIdeal Cert.KernelIdeal.Gen Idealize.ShloMosaic Idealize.ShloMosaic.TcCoe Idealize.SL.Sem
open Idealize.ShloMosaic.ValueIdx Cert.RowOps Cert.LayerMath Cert.LayerSpec
open Idealize.ShloMosaic.Pipeline (Dat)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's matrix products contract the rows' second axis with the weight's first. -/
theorem plain : IsPlain dot_S2048x256_S256x256_S2048x256_1_0_0_1_n_n := ⟨rfl, rfl, rfl, rfl, rfl, rfl⟩

/-- The stored value at row p and column q of a block, from the blocks the body loads. -/
theorem pay_apply (x0 x1 : Vec Ideal S2048x256 .f32) (wl wr : Vec Ideal S256x256 .bf16) (bl : Vec Ideal S256 .f32)
    (p : Fin 2048) (q : Fin 256) :
    k1_pay1 x0 x1 wl wr bl (ix2 p q) = leakyAt (linAt x0 x1 wl wr bl p q) := by
  unfold k1_pay1
  exact blockLayer_apply plain x0 x1 wl wr bl shapeCasts_S2048x256_S2048x256 shapeCasts_S256x256_S256x256 bitsLt_bf16_f32
    shapeCasts_S256_S256 shapeCasts_S256_S1x256 broadcasts_S1x256_S2048x256 p q

/-- The printed index maps over the grid: the two row arrays and the output move one block of rows per point,
    the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the aggregated states is row 2048·t + p of the array. -/
theorem rows0 (c : Dev nD) (t : Fin cfg1.N) (p : Fin 2048) (k : Fin 256) (r : Fin 262144)
    (hr : r.val = t.val * 2048 + p.val) :
    (iblk1 V c 0 t : Vec Ideal S2048x256 .f32) (ix2 p k) = (V c main_v28 : S262144x256.Idx → Elt Ideal .f32) (ix2 r k) := by
  obtain ⟨e0, e1, -⟩ := idx_facts t
  unfold iblk1
  rw [View.read_apply]
  show V c main_v28 _ = V c main_v28 _
  refine congrArg _ (funext fun a => Fin.ext ?_)
  match a with
  | ⟨0, _⟩ => show win1_0.index t (0 : Fin 2) * 2048 + 1 * p.val = r.val; rw [e0, hr]; omega
  | ⟨1, _⟩ => show win1_0.index t (1 : Fin 2) * 256 + 1 * k.val = k.val; rw [e1]; omega

/-- Row p of point t's block of the node states is row 2048·t + p of the array. -/
theorem rows1 (c : Dev nD) (t : Fin cfg1.N) (p : Fin 2048) (k : Fin 256) (r : Fin 262144)
    (hr : r.val = t.val * 2048 + p.val) :
    (iblk1 V c 1 t : Vec Ideal S2048x256 .f32) (ix2 p k) = (V c main_v14 : S262144x256.Idx → Elt Ideal .f32) (ix2 r k) := by
  obtain ⟨-, -, e0, e1, -⟩ := idx_facts t
  unfold iblk1
  rw [View.read_apply]
  show V c main_v14 _ = V c main_v14 _
  refine congrArg _ (funext fun a => Fin.ext ?_)
  match a with
  | ⟨0, _⟩ => show win1_1.index t (0 : Fin 2) * 2048 + 1 * p.val = r.val; rw [e0, hr]; omega
  | ⟨1, _⟩ => show win1_1.index t (1 : Fin 2) * 256 + 1 * k.val = k.val; rw [e1]; omega

/-- The first weight's one block is the whole weight. -/
theorem whole2 (c : Dev nD) (t : Fin cfg1.N) :
    (iblk1 V c 2 t : Vec Ideal S256x256 .bf16) = (V c main_v30 : S256x256.Idx → Elt Ideal .bf16) := by
  obtain ⟨-, -, -, -, e0, e1, -⟩ := idx_facts t
  funext y
  unfold iblk1
  rw [View.read_apply]
  show V c main_v30 _ = V c main_v30 y
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The bias's one block is the whole bias. -/
theorem whole3 (c : Dev nD) (t : Fin cfg1.N) :
    (iblk1 V c 3 t : Vec Ideal S256 .f32) = (V c main_v32 : S256.Idx → Elt Ideal .f32) := by
  obtain ⟨-, -, -, -, -, -, e0, -⟩ := idx_facts t
  funext y
  unfold iblk1
  rw [View.read_apply]
  show V c main_v32 _ = V c main_v32 y
  refine congrArg _ (funext fun a => Fin.ext ?_)
  match a with
  | ⟨0, _⟩ => show win1_3.index t (0 : Fin 1) * 256 + 1 * (y 0).val = (y 0).val; rw [e0]; omega

/-- The second weight's one block is the whole weight. -/
theorem whole4 (c : Dev nD) (t : Fin cfg1.N) :
    (iblk1 V c 4 t : Vec Ideal S256x256 .bf16) = (V c main_v34 : S256x256.Idx → Elt Ideal .bf16) := by
  obtain ⟨-, -, -, -, -, -, -, e0, e1, -⟩ := idx_facts t
  funext y
  unfold iblk1
  rw [View.read_apply]
  show V c main_v34 _ = V c main_v34 y
  refine congrArg _ (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- What point t stores at (p, q) is the layer stage's entry at row 2048·t + p and column q. -/
theorem pay_at (c : Dev nD) (t : Fin cfg1.N) (p : Fin 2048) (q : Fin 256) (r : Fin 262144)
    (hr : r.val = t.val * 2048 + p.val) :
    k1_pay1 (iblk1 V c 0 t) (iblk1 V c 1 t) (iblk1 V c 2 t) (iblk1 V c 4 t) (iblk1 V c 3 t) (ix2 p q)
      = Stages.layerAct (F := Ideal) (V c main_v28) (V c main_v14) (V c main_v30) (V c main_v32) (V c main_v34) (ix2 r q) := by
  refine (pay_apply (iblk1 V c 0 t) (iblk1 V c 1 t) (iblk1 V c 2 t) (iblk1 V c 4 t) (iblk1 V c 3 t) p q).trans ?_
  refine Eq.trans ?_ (layerAct_apply (V c main_v28) (V c main_v14) (V c main_v30) (V c main_v32) (V c main_v34) r q).symm
  rw [whole2 V c t, whole3 V c t, whole4 V c t]
  unfold linAt
  refine congrArg leakyAt (congrArg₂ (· + ·) (congrArg (· + _) (Finset.sum_congr rfl fun k _ => ?_)) (Finset.sum_congr rfl fun k _ => ?_))
  · rw [rows0 V c t p k r hr]
  · rw [rows1 V c t p k r hr]

/-- What point t writes back is block t of the layer stage of the arrays as the region finds them. -/
theorem flushed_eq (c : Dev nD) (t : Fin cfg1.N) :
    (dat1 (F := Ideal) V c).flushed 5 t = ((cfg1.win 5).blk t).view.read (Elt Ideal)
      (Stages.layerAct (F := Ideal) (V c main_v28) (V c main_v14) (V c main_v30) (V c main_v32) (V c main_v34)) := by
  show (cfg1.win 5).cut (grid1.coords t) ((dat1 V c).after 5 t) = _
  rw [after1_5]
  unfold out1_5
  rw [View.canon_unit_zero hz2]
  simp only [View.ld_unit_zero (S := S2048x256) hz2, View.ld_unit_zero (S := S256x256) hz2, View.ld_unit_zero (S := S256) hz1]
  obtain ⟨-, -, -, -, -, -, -, -, -, e0, e1⟩ := idx_facts t
  have hN : t.val < 128 := Nat.lt_of_lt_of_eq t.isLt N_1
  refine funext fun (j : S2048x256.Idx) => ?_
  obtain ⟨p, q, rfl⟩ : ∃ (p : Fin 2048) (q : Fin 256), j = ix2 p q := ⟨j 0, j 1, eq_ix2 j⟩
  have hp : p.val < 2048 := p.isLt
  rw [View.read_apply]
  have hemb : ((cfg1.win 5).blk t).view.emb (ix2 p q) = (ix2 (⟨t.val * 2048 + p.val, by omega⟩ : Fin 262144) q : S262144x256.Idx) := by
    refine funext fun a => Fin.ext ?_
    match a with
    | ⟨0, _⟩ => show win1_5.index t (0 : Fin 2) * 2048 + 1 * p.val = t.val * 2048 + p.val; rw [e0]; omega
    | ⟨1, _⟩ => show win1_5.index t (1 : Fin 2) * 256 + 1 * q.val = q.val; rw [e1]; omega
  rw [hemb]
  exact pay_at V c t p q ⟨t.val * 2048 + p.val, by omega⟩ rfl

/-- An index of the output array is in point t's block iff each coordinate is in the block's range on its axis. -/
theorem mem_blk (t : Fin cfg1.N) (i : S262144x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v35).slice (win1_5.rect t)).set ↔ _
  rw [View.set_slice_whole, Rect.mem_set_unit]
  exact Iff.rfl

/-- Row r of the output array lies in the block of point r / 2048. -/
theorem cover (i : S262144x256.Idx) :
    ∃ t : Fin cfg1.N, (cfg1.win 5).flush t = true ∧ i ∈ ((cfg1.win 5).blk t).view.set := by
  have hi0 : (i 0).val < 262144 := (i 0).isLt
  have hi1 : (i 1).val < 256 := (i 1).isLt
  have hN : cfg1.N = 128 := N_1
  refine ⟨⟨(i 0).val / 2048, by rw [hN]; omega⟩, flush1_5 _, ?_⟩
  obtain ⟨-, -, -, -, -, -, -, -, -, e0, e1⟩ := idx_facts ⟨(i 0).val / 2048, by rw [hN]; omega⟩
  rw [mem_blk]
  intro a
  match a with
  | ⟨0, _⟩ =>
    show win1_5.index _ (0 : Fin 2) * 2048 ≤ (i 0).val ∧ (i 0).val < win1_5.index _ (0 : Fin 2) * 2048 + 2048
    rw [e0]; show (i 0).val / 2048 * 2048 ≤ (i 0).val ∧ (i 0).val < (i 0).val / 2048 * 2048 + 2048; omega
  | ⟨1, _⟩ =>
    show win1_5.index _ (1 : Fin 2) * 256 ≤ (i 1).val ∧ (i 1).val < win1_5.index _ (1 : Fin 2) * 256 + 256
    rw [e1]; omega

/-- The region's output array after the region is the layer stage of its five input arrays as the region found them. -/
theorem final (c : Dev nD) :
    (dat1 (F := Ideal) V c).arrAt 5 cfg1.N
      = Stages.layerAct (F := Ideal) (V c main_v28) (V c main_v14) (V c main_v30) (V c main_v32) (V c main_v34) :=
  (dat1 (F := Ideal) V c).arrAt_eq_of_cover 5 _ (fun t _ => flushed_eq V c t) (cover)

end Cert.Region1

end
-- ==== Proof.Region2.lean ====
/-
  The second layer's pipelined region leaves its output array at the layer stage of its five input arrays.

  The region walks the [262144, 256] arrays a (aggregated neighbour states) and h (node states) in 128 blocks of
  2048 rows; the two [256, 256] weights and the length-256 bias are one block each, the same at every point.
  At point t the body reads rows 2048·t … 2048·t + 2047 of a and of h and stores, at row p and column c of the
  output's block, the leaky rectifier of ((Σ_k a(r,k) · wl(k,c)) + bl(c)) + Σ_k h(r,k) · wr(k,c)
  with r = 2048·t + p — the entry of the whole-array layer stage at (r, c).  So what point t writes back is block
  t of that stage, and since row r lies in the block of point r / 2048 the blocks cover the output array, which
  therefore ends holding the stage, whatever the arrays held when the region was entered.
-/
import proofs.«123895_j50663434223943_1_alg».proof.Proof.Gen.KernelIdeal.Frame
import proofs.«123895_j50663434223943_1_alg».proof.Proof.LayerSpec
import Idealize.ShloMosaic.Lib.Pipeline.Value

noncomputable section

namespace Cert.Region2

open Cert.KernelIdeal Cert.KernelIdeal.Gen Idealize.ShloMosaic Idealize.ShloMosaic.TcCoe Idealize.SL.Sem
open Idealize.ShloMosaic.ValueIdx Cert.RowOps Cert.LayerMath Cert.LayerSpec
open Idealize.ShloMosaic.Pipeline (Dat)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's matrix products contract the rows' second axis with the weight's first. -/
theorem plain : IsPlain dot_S2048x256_S256x256_S2048x256_1_0_0_1_n_n := ⟨rfl, rfl, rfl, rfl, rfl, rfl⟩

/-- The stored value at row p and column q of a block, from the blocks the body loads. -/
theorem pay_apply (x0 x1 : Vec Ideal S2048x256 .f32) (wl wr : Vec Ideal S256x256 .bf16) (bl : Vec Ideal S256 .f32)
    (p : Fin 2048) (q : Fin 256) :
    k2_pay1 x0 x1 wl wr bl (ix2 p q) = leakyAt (linAt x0 x1 wl wr bl p q) := by
  unfold k2_pay1
  exact blockLayer_apply plain x0 x1 wl wr bl shapeCasts_S2048x256_S2048x256 shapeCasts_S256x256_S256x256 bitsLt_bf16_f32
    shapeCasts_S256_S256 shapeCasts_S256_S1x256 broadcasts_S1x256_S2048x256 p q

/-- The printed index maps over the grid: the two row arrays and the output move one block of rows per point,
    the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block of the aggregated states is row 2048·t + p of the array. -/
theorem rows0 (c : Dev nD) (t : Fin cfg2.N) (p : Fin 2048) (k : Fin 256) (r : Fin 262144)
    (hr : r.val = t.val * 2048 + p.val) :
    (iblk2 V c 0 t : Vec Ideal S2048x256 .f32) (ix2 p k) = (V c main_v47 : S262144x256.Idx → Elt Ideal .f32) (ix2 r k) := by
  obtain ⟨e0, e1, -⟩ := idx_facts t
  unfold iblk2
  rw [View.read_apply]
  show V c main_v47 _ = V c main_v47 _
  refine congrArg _ (funext fun a => Fin.ext ?_)
  match a with
  | ⟨0, _⟩ => show win2_0.index t (0 : Fin 2) * 2048 + 1 * p.val = r.val; rw [e0, hr]; omega
  | ⟨1, _⟩ => show win2_0.index t (1 : Fin 2) * 256 + 1 * k.val = k.val; rw [e1]; omega

/-- Row p of point t's block of the node states is row 2048·t + p of the array. -/
theorem rows1 (c : Dev nD) (t : Fin cfg2.N) (p : Fin 2048) (k : Fin 256) (r : Fin 262144)
    (hr : r.val = t.val * 2048 + p.val) :
    (iblk2 V c 1 t : Vec Ideal S2048x256 .f32) (ix2 p k) = (V c main_v35 : S262144x256.Idx → Elt Ideal .f32) (ix2 r k) := by
  obtain ⟨-, -, e0, e1, -⟩ := idx_facts t
  unfold iblk2
  rw [View.read_apply]
  show V c main_v35 _ = V c main_v35 _
  refine congrArg _ (funext fun a => Fin.ext ?_)
  match a with
  | ⟨0, _⟩ => show win2_1.index t (0 : Fin 2) * 2048 + 1 * p.val = r.val; rw [e0, hr]; omega
  | ⟨1, _⟩ => show win2_1.index t (1 : Fin 2) * 256 + 1 * k.val = k.val; rw [e1]; omega

/-- The first weight's one block is the whole weight. -/
theorem whole2 (c : Dev nD) (t : Fin cfg2.N) :
    (iblk2 V c 2 t : Vec Ideal S256x256 .bf16) = (V c main_v49 : S256x256.Idx → Elt Ideal .bf16) := by
  obtain ⟨-, -, -, -, e0, e1, -⟩ := idx_facts t
  funext y
  unfold iblk2
  rw [View.read_apply]
  show V c main_v49 _ = V c main_v49 y
  refine congrArg _ (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- The bias's one block is the whole bias. -/
theorem whole3 (c : Dev nD) (t : Fin cfg2.N) :
    (iblk2 V c 3 t : Vec Ideal S256 .f32) = (V c main_v51 : S256.Idx → Elt Ideal .f32) := by
  obtain ⟨-, -, -, -, -, -, e0, -⟩ := idx_facts t
  funext y
  unfold iblk2
  rw [View.read_apply]
  show V c main_v51 _ = V c main_v51 y
  refine congrArg _ (funext fun a => Fin.ext ?_)
  match a with
  | ⟨0, _⟩ => show win2_3.index t (0 : Fin 1) * 256 + 1 * (y 0).val = (y 0).val; rw [e0]; omega

/-- The second weight's one block is the whole weight. -/
theorem whole4 (c : Dev nD) (t : Fin cfg2.N) :
    (iblk2 V c 4 t : Vec Ideal S256x256 .bf16) = (V c main_v53 : S256x256.Idx → Elt Ideal .bf16) := by
  obtain ⟨-, -, -, -, -, -, -, e0, e1, -⟩ := idx_facts t
  funext y
  unfold iblk2
  rw [View.read_apply]
  show V c main_v53 _ = V c main_v53 y
  refine congrArg _ (funext fun a => Fin.ext ?_)
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- What point t stores at (p, q) is the layer stage's entry at row 2048·t + p and column q. -/
theorem pay_at (c : Dev nD) (t : Fin cfg2.N) (p : Fin 2048) (q : Fin 256) (r : Fin 262144)
    (hr : r.val = t.val * 2048 + p.val) :
    k2_pay1 (iblk2 V c 0 t) (iblk2 V c 1 t) (iblk2 V c 2 t) (iblk2 V c 4 t) (iblk2 V c 3 t) (ix2 p q)
      = Stages.layerAct (F := Ideal) (V c main_v47) (V c main_v35) (V c main_v49) (V c main_v51) (V c main_v53) (ix2 r q) := by
  refine (pay_apply (iblk2 V c 0 t) (iblk2 V c 1 t) (iblk2 V c 2 t) (iblk2 V c 4 t) (iblk2 V c 3 t) p q).trans ?_
  refine Eq.trans ?_ (layerAct_apply (V c main_v47) (V c main_v35) (V c main_v49) (V c main_v51) (V c main_v53) r q).symm
  rw [whole2 V c t, whole3 V c t, whole4 V c t]
  unfold linAt
  refine congrArg leakyAt (congrArg₂ (· + ·) (congrArg (· + _) (Finset.sum_congr rfl fun k _ => ?_)) (Finset.sum_congr rfl fun k _ => ?_))
  · rw [rows0 V c t p k r hr]
  · rw [rows1 V c t p k r hr]

set_option maxHeartbeats 400000 in
/-- What point t writes back is block t of the layer stage of the arrays as the region finds them. -/
theorem flushed_eq (c : Dev nD) (t : Fin cfg2.N) :
    (dat2 (F := Ideal) V c).flushed 5 t = ((cfg2.win 5).blk t).view.read (Elt Ideal)
      (Stages.layerAct (F := Ideal) (V c main_v47) (V c main_v35) (V c main_v49) (V c main_v51) (V c main_v53)) := by
  show (cfg2.win 5).cut (grid2.coords t) ((dat2 V c).after 5 t) = _
  rw [after2_5]
  unfold out2_5
  rw [View.canon_unit_zero hz2]
  simp only [View.ld_unit_zero (S := S2048x256) hz2, View.ld_unit_zero (S := S256x256) hz2, View.ld_unit_zero (S := S256) hz1]
  obtain ⟨-, -, -, -, -, -, -, -, -, e0, e1⟩ := idx_facts t
  have hN : t.val < 128 := Nat.lt_of_lt_of_eq t.isLt N_2
  refine funext fun (j : S2048x256.Idx) => ?_
  obtain ⟨p, q, rfl⟩ : ∃ (p : Fin 2048) (q : Fin 256), j = ix2 p q := ⟨j 0, j 1, eq_ix2 j⟩
  have hp : p.val < 2048 := p.isLt
  rw [View.read_apply]
  have hemb : ((cfg2.win 5).blk t).view.emb (ix2 p q) = (ix2 (⟨t.val * 2048 + p.val, by omega⟩ : Fin 262144) q : S262144x256.Idx) := by
    refine funext fun a => Fin.ext ?_
    match a with
    | ⟨0, _⟩ => show win2_5.index t (0 : Fin 2) * 2048 + 1 * p.val = t.val * 2048 + p.val; rw [e0]; omega
    | ⟨1, _⟩ => show win2_5.index t (1 : Fin 2) * 256 + 1 * q.val = q.val; rw [e1]; omega
  rw [hemb]
  exact pay_at V c t p q ⟨t.val * 2048 + p.val, by omega⟩ rfl

/-- An index of the output array is in point t's block iff each coordinate is in the block's range on its axis. -/
theorem mem_blk (t : Fin cfg2.N) (i : S262144x256.Idx) :
    i ∈ ((cfg2.win 5).blk t).view.set ↔ ∀ a : Fin 2, win2_5.index t a * S2048x256.size a ≤ (i a).val ∧ (i a).val < win2_5.index t a * S2048x256.size a + S2048x256.size a := by
  show i ∈ ((View.whole main_v54).slice (win2_5.rect t)).set ↔ _
  rw [View.set_slice_whole, Rect.mem_set_unit]
  exact Iff.rfl

/-- Row r of the output array lies in the block of point r / 2048. -/
theorem cover (i : S262144x256.Idx) :
    ∃ t : Fin cfg2.N, (cfg2.win 5).flush t = true ∧ i ∈ ((cfg2.win 5).blk t).view.set := by
  have hi0 : (i 0).val < 262144 := (i 0).isLt
  have hi1 : (i 1).val < 256 := (i 1).isLt
  have hN : cfg2.N = 128 := N_2
  refine ⟨⟨(i 0).val / 2048, by rw [hN]; omega⟩, flush2_5 _, ?_⟩
  obtain ⟨-, -, -, -, -, -, -, -, -, e0, e1⟩ := idx_facts ⟨(i 0).val / 2048, by rw [hN]; omega⟩
  rw [mem_blk]
  intro a
  match a with
  | ⟨0, _⟩ =>
    show win2_5.index _ (0 : Fin 2) * 2048 ≤ (i 0).val ∧ (i 0).val < win2_5.index _ (0 : Fin 2) * 2048 + 2048
    rw [e0]; show (i 0).val / 2048 * 2048 ≤ (i 0).val ∧ (i 0).val < (i 0).val / 2048 * 2048 + 2048; omega
  | ⟨1, _⟩ =>
    show win2_5.index _ (1 : Fin 2) * 256 ≤ (i 1).val ∧ (i 1).val < win2_5.index _ (1 : Fin 2) * 256 + 256
    rw [e1]; omega

/-- The region's output array after the region is the layer stage of its five input arrays as the region found them. -/
theorem final (c : Dev nD) :
    (dat2 (F := Ideal) V c).arrAt 5 cfg2.N
      = Stages.layerAct (F := Ideal) (V c main_v47) (V c main_v35) (V c main_v49) (V c main_v51) (V c main_v53) :=
  (dat2 (F := Ideal) V c).arrAt_eq_of_cover 5 _ (fun t _ => flushed_eq V c t) (cover)

end Cert.Region2

end
-- ==== Proof.Region3.lean ====
/-
  The third layer's pipelined region leaves its output array at the layer stage of its five input arrays.

  The region walks the [262144, 256] arrays a (aggregated neighbour states) and h (node states) in 128 blocks of
  2048 rows; the two [256, 256] weights and the length-256 bias are one block each, the same at every point.
  At point t the body reads rows 2048·t … 2048·t + 2047 of a and of h and stores, at row p and column c of the
  output's block, ((Σ_k a(r,k) · wl(k,c)) + bl(c)) + Σ_k h(r,k) · wr(k,c), with no activation
  with r = 2048·t + p — the entry of the whole-array layer stage at (r, c).  So what point t writes back is block
  t of that stage, and since row r lies in the block of point r / 2048 the blocks cover the output array, which
  therefore ends holding the stage, whatever the arrays held when the region was entered.
-/
import proofs.«123895_j50663434223943_1_alg».proof.Proof.Gen.KernelIdeal.Frame
import proofs.«123895_j50663434223943_1_alg».proof.Proof.LayerSpec
import Idealize.ShloMosaic.Lib.Pipeline.Value

noncomputable section

namespace Cert.Region3

open Cert.KernelIdeal Cert.KernelIdeal.Gen Idealize.ShloMosaic Idealize.ShloMosaic.TcCoe Idealize.SL.Sem
open Idealize.ShloMosaic.ValueIdx Cert.RowOps Cert.LayerMath Cert.LayerSpec
open Idealize.ShloMosaic.Pipeline (Dat)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's matrix products contract the rows' second axis with the weight's first. -/
theorem plain : IsPlain dot_S2048x256_S256x256_S2048x256_1_0_0_1_n_n := ⟨rfl, rfl, rfl, rfl, rfl, rfl⟩

/-- The stored value at row p and column q of a block, from the blocks the body loads. -/
theorem pay_apply (x0 x1 : Vec Ideal S2048x256 .f32) (wl wr : Vec Ideal S256x256 .bf16) (bl : Vec Ideal S256 .f32)
    (p : Fin 2048) (q : Fin 256) :
    k3_pay1 x0 x1 wl wr bl (ix2 p q) = linAt x0 x1 wl wr bl p q := by
  unfold k3_pay1
  exact blockLin_apply plain x0 x1 wl wr bl shapeCasts_S2048x256_S2048x256 shapeCasts_S256x256_S256x256 bitsLt_bf16_f32
    shapeCasts_S256_S256 shapeCasts_S256_S1x256 broadcasts_S1x256_S2048x256 p q

/-- The printed index maps over the grid: the two row arrays and the output move one block of rows per point,
    the weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's block of the aggregated states is row 2048·t + p of the array. -/
theorem rows0 (c : Dev nD) (t : Fin cfg3.N) (p : Fin 2048) (k : Fin 256) (r : Fin 262144)
    (hr : r.val = t.val * 2048 + p.val) :
    (iblk3 V c 0 t : Vec Ideal S2048x256 .f32) (ix2 p k) = (V c main_v66 : S262144x256.Idx → Elt Ideal .f32) (ix2 r k) := by
  obtain ⟨e0, e1, -⟩ := idx_facts t
  unfold iblk3
  rw [View.read_apply]
  show V c main_v66 _ = V c main_v66 _
  refine congrArg _ (funext fun a => Fin.ext ?_)
  match a with
  | ⟨0, _⟩ => show win3_0.index t (0 : Fin 2) * 2048 + 1 * p.val = r.val; rw [e0, hr]; omega
  | ⟨1, _⟩ => show win3_0.index t (1 : Fin 2) * 256 + 1 * k.val = k.val; rw [e1]; omega

/-- Row p of point t's block of the node states is row 2048·t + p of the array. -/
theorem rows1 (c : Dev nD) (t : Fin cfg3.N) (p : Fin 2048) (k : Fin 256) (r : Fin 262144)
    (hr : r.val = t.val * 2048 + p.val) :
    (iblk3 V c 1 t : Vec Ideal S2048x256 .f32) (ix2 p k) = (V c main_v54 : S262144x256.Idx → Elt Ideal .f32) (ix2 r k) := by
  obtain ⟨-, -, e0, e1, -⟩ := idx_facts t
  unfold iblk3
  rw [View.read_apply]
  show V c main_v54 _ = V c main_v54 _
  refine congrArg _ (funext fun a => Fin.ext ?_)
  match a with
  | ⟨0, _⟩ => show win3_1.index t (0 : Fin 2) * 2048 + 1 * p.val = r.val; rw [e0, hr]; omega
  | ⟨1, _⟩ => show win3_1.index t (1 : Fin 2) * 256 + 1 * k.val = k.val; rw [e1]; omega

/-- The first weight's one block is the whole weight. -/
theorem whole2 (c : Dev nD) (t : Fin cfg3.N) :
    (iblk3 V c 2 t : Vec Ideal S256x256 .bf16) = (V c main_v68 : S256x256.Idx → Elt Ideal .bf16) := by
  obtain ⟨-, -, -, -, e0, e1, -⟩ := idx_facts t
  funext y
  unfold iblk3
  rw [View.read_apply]
  show V c main_v68 _ = V c main_v68 y
  refine congrArg _ (funext fun a => Fin.ext ?_)
  match a with
  | ⟨0, _⟩ => show win3_2.index t (0 : Fin 2) * 256 + 1 * (y 0).val = (y 0).val; rw [e0]; omega
  | ⟨1, _⟩ => show win3_2.index t (1 : Fin 2) * 256 + 1 * (y 1).val = (y 1).val; rw [e1]; omega

/-- The bias's one block is the whole bias. -/
theorem whole3 (c : Dev nD) (t : Fin cfg3.N) :
    (iblk3 V c 3 t : Vec Ideal S256 .f32) = (V c main_v70 : S256.Idx → Elt Ideal .f32) := by
  obtain ⟨-, -, -, -, -, -, e0, -⟩ := idx_facts t
  funext y
  unfold iblk3
  rw [View.read_apply]
  show V c main_v70 _ = V c main_v70 y
  refine congrArg _ (funext fun a => Fin.ext ?_)
  match a with
  | ⟨0, _⟩ => show win3_3.index t (0 : Fin 1) * 256 + 1 * (y 0).val = (y 0).val; rw [e0]; omega

/-- The second weight's one block is the whole weight. -/
theorem whole4 (c : Dev nD) (t : Fin cfg3.N) :
    (iblk3 V c 4 t : Vec Ideal S256x256 .bf16) = (V c main_v72 : S256x256.Idx → Elt Ideal .bf16) := by
  obtain ⟨-, -, -, -, -, -, -, e0, e1, -⟩ := idx_facts t
  funext y
  unfold iblk3
  rw [View.read_apply]
  show V c main_v72 _ = V c main_v72 y
  refine congrArg _ (funext fun a => Fin.ext ?_)
  match a with
  | ⟨0, _⟩ => show win3_4.index t (0 : Fin 2) * 256 + 1 * (y 0).val = (y 0).val; rw [e0]; omega
  | ⟨1, _⟩ => show win3_4.index t (1 : Fin 2) * 256 + 1 * (y 1).val = (y 1).val; rw [e1]; omega

/-- What point t stores at (p, q) is the layer stage's entry at row 2048·t + p and column q. -/
theorem pay_at (c : Dev nD) (t : Fin cfg3.N) (p : Fin 2048) (q : Fin 256) (r : Fin 262144)
    (hr : r.val = t.val * 2048 + p.val) :
    k3_pay1 (iblk3 V c 0 t) (iblk3 V c 1 t) (iblk3 V c 2 t) (iblk3 V c 4 t) (iblk3 V c 3 t) (ix2 p q)
      = Stages.lin (F := Ideal) (V c main_v66) (V c main_v54) (V c main_v68) (V c main_v70) (V c main_v72) (ix2 r q) := by
  refine (pay_apply (iblk3 V c 0 t) (iblk3 V c 1 t) (iblk3 V c 2 t) (iblk3 V c 4 t) (iblk3 V c 3 t) p q).trans ?_
  refine Eq.trans ?_ (lin_apply (V c main_v66) (V c main_v54) (V c main_v68) (V c main_v70) (V c main_v72) r q).symm
  rw [whole2 V c t, whole3 V c t, whole4 V c t]
  unfold linAt
  refine (congrArg₂ (· + ·) (congrArg (· + _) (Finset.sum_congr rfl fun k _ => ?_)) (Finset.sum_congr rfl fun k _ => ?_))
  · rw [rows0 V c t p k r hr]
  · rw [rows1 V c t p k r hr]

/-- What point t writes back is block t of the layer stage of the arrays as the region finds them. -/
theorem flushed_eq (c : Dev nD) (t : Fin cfg3.N) :
    (dat3 (F := Ideal) V c).flushed 5 t = ((cfg3.win 5).blk t).view.read (Elt Ideal)
      (Stages.lin (F := Ideal) (V c main_v66) (V c main_v54) (V c main_v68) (V c main_v70) (V c main_v72)) := by
  show (cfg3.win 5).cut (grid3.coords t) ((dat3 V c).after 5 t) = _
  rw [after3_5]
  unfold out3_5
  rw [View.canon_unit_zero hz2]
  simp only [View.ld_unit_zero (S := S2048x256) hz2, View.ld_unit_zero (S := S256x256) hz2, View.ld_unit_zero (S := S256) hz1]
  obtain ⟨-, -, -, -, -, -, -, -, -, e0, e1⟩ := idx_facts t
  have hN : t.val < 128 := Nat.lt_of_lt_of_eq t.isLt N_3
  refine funext fun (j : S2048x256.Idx) => ?_
  obtain ⟨p, q, rfl⟩ : ∃ (p : Fin 2048) (q : Fin 256), j = ix2 p q := ⟨j 0, j 1, eq_ix2 j⟩
  have hp : p.val < 2048 := p.isLt
  rw [View.read_apply]
  have hemb : ((cfg3.win 5).blk t).view.emb (ix2 p q) = (ix2 (⟨t.val * 2048 + p.val, by omega⟩ : Fin 262144) q : S262144x256.Idx) := by
    refine funext fun a => Fin.ext ?_
    match a with
    | ⟨0, _⟩ => show win3_5.index t (0 : Fin 2) * 2048 + 1 * p.val = t.val * 2048 + p.val; rw [e0]; omega
    | ⟨1, _⟩ => show win3_5.index t (1 : Fin 2) * 256 + 1 * q.val = q.val; rw [e1]; omega
  rw [hemb]
  exact pay_at V c t p q ⟨t.val * 2048 + p.val, by omega⟩ rfl

/-- An index of the output array is in point t's block iff each coordinate is in the block's range on its axis. -/
theorem mem_blk (t : Fin cfg3.N) (i : S262144x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v73).slice (win3_5.rect t)).set ↔ _
  rw [View.set_slice_whole, Rect.mem_set_unit]
  exact Iff.rfl

/-- Row r of the output array lies in the block of point r / 2048. -/
theorem cover (i : S262144x256.Idx) :
    ∃ t : Fin cfg3.N, (cfg3.win 5).flush t = true ∧ i ∈ ((cfg3.win 5).blk t).view.set := by
  have hi0 : (i 0).val < 262144 := (i 0).isLt
  have hi1 : (i 1).val < 256 := (i 1).isLt
  have hN : cfg3.N = 128 := N_3
  refine ⟨⟨(i 0).val / 2048, by rw [hN]; omega⟩, flush3_5 _, ?_⟩
  obtain ⟨-, -, -, -, -, -, -, -, -, e0, e1⟩ := idx_facts ⟨(i 0).val / 2048, by rw [hN]; omega⟩
  rw [mem_blk]
  intro a
  match a with
  | ⟨0, _⟩ =>
    show win3_5.index _ (0 : Fin 2) * 2048 ≤ (i 0).val ∧ (i 0).val < win3_5.index _ (0 : Fin 2) * 2048 + 2048
    rw [e0]; show (i 0).val / 2048 * 2048 ≤ (i 0).val ∧ (i 0).val < (i 0).val / 2048 * 2048 + 2048; omega
  | ⟨1, _⟩ =>
    show win3_5.index _ (1 : Fin 2) * 256 ≤ (i 1).val ∧ (i 1).val < win3_5.index _ (1 : Fin 2) * 256 + 256
    rw [e1]; omega

/-- The region's output array after the region is the layer stage of its five input arrays as the region found them. -/
theorem final (c : Dev nD) :
    (dat3 (F := Ideal) V c).arrAt 5 cfg3.N
      = Stages.lin (F := Ideal) (V c main_v66) (V c main_v54) (V c main_v68) (V c main_v70) (V c main_v72) :=
  (dat3 (F := Ideal) V c).arrAt_eq_of_cover 5 _ (fun t _ => flushed_eq V c t) (cover)

end Cert.Region3

end
-- ==== Proof.Region4.lean ====
/-
  The head of the network, block by block.

  The head takes the [8192, 256] array of per-graph sums, applies a dense map to 256 hidden units with a
  slope-0.1 leaky rectifier, and then a dense map to one output per graph.  It is computed in 4 blocks of
  2048 rows: block t holds rows 2048·t … 2048·t + 2047 of the sums and the whole of both weights and both
  biases, and produces the same rows of the result.  Entry (p, 0) of a block's result is the sum over the
  hidden units k of the rectified hidden value (the sum over j of sum (p, j) times first weight (j, k), plus
  first bias k) times second weight (k, 0), plus the second bias; entry (2048·t + p, 0) of the whole-array
  head is the same expression of the same row.  The block's rectifier keeps x where x > 0 and the
  whole-array one where x ≥ 0; they differ only at x = 0, where the other branch, the slope times zero, is
  zero as well.  The blocks tile the rows, row r lying in block r / 2048.
-/
import proofs.«123895_j50663434223943_1_alg».proof.Proof.Gen.KernelIdeal.Frame
import proofs.«123895_j50663434223943_1_alg».proof.Proof.Stages
import proofs.«123895_j50663434223943_1_alg».proof.Proof.LibDense
import Idealize.ShloMosaic.Lib.IdealHost
import Idealize.ShloMosaic.Lib.Pipeline.Value

noncomputable section

namespace Cert.Region4

open Idealize.ShloMosaic Idealize.ShloMosaic.TcCoe Idealize.SL.Sem Idealize.ShloMosaic.ValueIdx
open Idealize.ShloMosaic.Pipeline (Dat)
open Cert.KernelIdeal Cert.KernelIdeal.Gen Cert.RowOps Cert.Dense

variable [Cert.ReferenceIdeal.Facts]

/-! ## The rectifier on one extended real -/

/-- The slope-0.1 leaky rectifier: x where x ≥ 0, else the slope times x.  The zero and the slope are kept as the
    values of their binary words. -/
def rect (a : EReal) : EReal :=
  Scalar.select (Ideal.cmp .oge a (Ideal.ofBits .f32 0x00000000#32)) a (Ideal.ofBits .f32 0x3DCCCCCD#32 * a)

/-- Testing x > 0 instead gives the same value: at x = 0 the other branch is the slope times zero. -/
theorem rect_strict (a : EReal) :
    Scalar.select (Ideal.cmp .ogt a (Ideal.ofBits .f32 0x00000000#32)) a (Ideal.ofBits .f32 0x3DCCCCCD#32 * a) = rect a := by
  unfold rect
  rw [Ideal.ofBits_zero_f32]
  rcases lt_trichotomy (0 : EReal) a with h | h | h
  · simp [Scalar.select, Ideal.cmp, h, le_of_lt h]
  · subst h; simp [Scalar.select, Ideal.cmp]
  · simp [Scalar.select, Ideal.cmp, not_lt.mpr (le_of_lt h), not_le.mpr h]

/-! ## One entry of a block's result, and of the whole-array head -/

theorem plainHid : IsPlain dot_S2048x256_S256x256_S2048x256_1_0_0_1_n_n := ⟨rfl, rfl, rfl, rfl, rfl, rfl⟩
theorem plainOut : IsPlain dot_S2048x256_S256x1_S2048x1_1_0_0_1_n_n := ⟨rfl, rfl, rfl, rfl, rfl, rfl⟩
theorem plainHidWhole : IsPlain Cert.ReferenceIdeal.dot_S8192x256_S256x256_S8192x256_1_0_0_1_n_n :=
  ⟨rfl, rfl, rfl, rfl, rfl, rfl⟩
theorem plainOutWhole : IsPlain Cert.ReferenceIdeal.dot_S8192x256_S256x1_S8192x1_1_0_0_1_n_n :=
  ⟨rfl, rfl, rfl, rfl, rfl, rfl⟩

/-- The host's plain product in its own spelling, at (r, c): the sum over the shared axis of the products. -/
theorem hostProd_apply {M K N : Nat} {d : DotDims ⟨2, ![M, K]⟩ ⟨2, ![K, N]⟩ ⟨2, ![M, N]⟩} (hd : IsPlain d)
    (lhs : FVec Ideal ⟨2, ![M, K]⟩ .f32) (rhs : FVec Ideal ⟨2, ![K, N]⟩ .f32) (r : Fin M) (c : Fin N) :
    Host.dotGeneral d none lhs rhs (ix2 r c) = ∑ k : Fin K, lhs (ix2 r k) * rhs (ix2 k c) :=
  hostDot_apply hd none .single lhs rhs r c

/-- A block's plain product into a zero accumulator in the body's own spelling, at (r, c): the same sum. -/
theorem blockProd_apply {M K N : Nat} {d : DotDims ⟨2, ![M, K]⟩ ⟨2, ![K, N]⟩ ⟨2, ![M, N]⟩} (hd : IsPlain d)
    {φ₁ φ₂ : FTy} (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c)
      = ∑ k : Fin K, lhs (ix2 r k) * rhs (ix2 k c) :=
  matmul_zero_apply hd none lhs rhs r c

/-- Entry (p, u) of a block's result: over the hidden units, the rectified hidden value of row p times the second
    weight, plus the second bias. -/
theorem pay_apply (x0 : Vec Ideal S2048x256 .f32) (x1 : Vec Ideal S256x256 .bf16) (x2 : Vec Ideal S256 .f32)
    (x3 : Vec Ideal S256x1 .bf16) (x4 : Vec Ideal S1 .f32) (p : Fin 2048) (u : Fin 1) :
    k4_pay1 x0 x1 x2 x3 x4 (ix2 p u)
      = (∑ k : Fin 256, rect ((∑ j : Fin 256, x0 (ix2 p j) * x1 (ix2 j k)) + x2 (ix1 k)) * x3 (ix2 k u)) + x4 (ix1 u) := by
  unfold k4_pay1
  rw [shapeCast_self, shapeCast_self, shapeCast_self, addf_apply, rowBias_apply]
  refine congrArg (· + x4 (ix1 u)) ((blockProd_apply (φ₁ := .bf16) (φ₂ := .bf16) plainOut _ x3 p u).trans (Finset.sum_congr rfl fun k _ => ?_))
  refine congrArg (· * x3 (ix2 k u)) ?_
  rw [truncf_apply, select_apply, cmpf_apply, mulf_apply, broadcast_apply, broadcast_apply, addf_apply, rowBias_apply,
    blockProd_apply (φ₁ := .bf16) (φ₂ := .bf16) plainHid _ x1 p k]
  exact rect_strict _

/-- Entry (r, u) of the whole-array head: the same expression of row r. -/
theorem head_apply (Pl : Cert.Stages.T Ideal Cert.ReferenceIdeal.S8192x256 .f32)
    (W1 : Cert.Stages.T Ideal Cert.ReferenceIdeal.S256x256 .f32) (B1 : Cert.Stages.T Ideal Cert.ReferenceIdeal.S256 .f32)
    (W2 : Cert.Stages.T Ideal Cert.ReferenceIdeal.S256x1 .f32) (B2 : Cert.Stages.T Ideal Cert.ReferenceIdeal.S1 .f32)
    (r : Fin 8192) (u : Fin 1) :
    Cert.Stages.head Pl W1 B1 W2 B2 (ix2 r u)
      = (∑ k : Fin 256, rect ((∑ j : Fin 256, Pl (ix2 r j) * W1 (ix2 j k)) + B1 (ix1 k)) * W2 (ix2 k u)) + B2 (ix1 u) := by
  unfold Cert.Stages.head Cert.Stages.leakyG
  rw [addf_apply, hostRowBias_apply]
  refine congrArg (· + B2 (ix1 u)) ((hostProd_apply plainOutWhole _ W2 r u).trans
    (Finset.sum_congr rfl fun k _ => ?_))
  refine congrArg (· * W2 (ix2 k u)) ?_
  rw [select_apply, cmpf_apply, mulf_apply, broadcastInDim_scalar_apply, broadcastInDim_scalar_apply, constant_apply,
    constant_apply, addf_apply, hostRowBias_apply, hostProd_apply plainHidWhole Pl W1 r k]
  rfl

/-- A block's entry (p, u) is the whole-array head's entry (2048·n + p, u), when the block's sums are rows 2048·n …
    of the array's and its weights and biases are the arrays'. -/
theorem entry_eq (Pl : Cert.Stages.T Ideal Cert.ReferenceIdeal.S8192x256 .f32)
    (W1 : Cert.Stages.T Ideal Cert.ReferenceIdeal.S256x256 .f32) (B1 : Cert.Stages.T Ideal Cert.ReferenceIdeal.S256 .f32)
    (W2 : Cert.Stages.T Ideal Cert.ReferenceIdeal.S256x1 .f32) (B2 : Cert.Stages.T Ideal Cert.ReferenceIdeal.S1 .f32)
    (x0 : Vec Ideal S2048x256 .f32) (x1 : Vec Ideal S256x256 .bf16) (x2 : Vec Ideal S256 .f32)
    (x3 : Vec Ideal S256x1 .bf16) (x4 : Vec Ideal S1 .f32) (n : Nat)
    (h0 : ∀ (p : Fin 2048) (j : Fin 256) (r : Fin 8192), r.val = 2048 * n + p.val → x0 (ix2 p j) = Pl (ix2 r j))
    (h1 : ∀ (j k : Fin 256), x1 (ix2 j k) = W1 (ix2 j k)) (h2 : ∀ k : Fin 256, x2 (ix1 k) = B1 (ix1 k))
    (h3 : ∀ (k : Fin 256) (u : Fin 1), x3 (ix2 k u) = W2 (ix2 k u)) (h4 : ∀ u : Fin 1, x4 (ix1 u) = B2 (ix1 u))
    (y : S2048x1.Idx) (i : S8192x1.Idx) (hi0 : (i 0).val = 2048 * n + (y 0).val) (hi1 : (i 1).val = (y 1).val) :
    k4_pay1 x0 x1 x2 x3 x4 y = Cert.Stages.head Pl W1 B1 W2 B2 i := by
  obtain ⟨p, u, rfl⟩ : ∃ (p : Fin 2048) (u : Fin 1), y = ix2 p u := ⟨y 0, y 1, eq_ix2 y⟩
  obtain ⟨r, u', rfl⟩ : ∃ (r : Fin 8192) (u' : Fin 1), i = ix2 r u' := ⟨i 0, i 1, eq_ix2 i⟩
  obtain rfl : u' = u := Fin.ext hi1
  rw [pay_apply, head_apply, h4]
  refine congrArg (· + B2 (ix1 u')) (Finset.sum_congr rfl fun k _ => ?_)
  rw [h3, h2]
  exact congrArg (fun s => rect (s + B1 (ix1 k)) * W2 (ix2 k u'))
    (Finset.sum_congr rfl fun j _ => by rw [h0 p j r hi0, h1])

/-! ## The blocks -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the sums and the result move one block of rows per point, the weights and
    the biases stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- The sums' block at point t is rows 2048·t … of the array. -/
theorem iblk_p (c : Dev nD) (t : Fin cfg4.N) (p : Fin 2048) (j : Fin 256) (r : Fin 8192)
    (hr : r.val = 2048 * t.val + p.val) :
    (iblk4 V c 0 t : Vec Ideal S2048x256 .f32) (ix2 p j) = (V c main_v76 : S8192x256.Idx → Elt Ideal .f32) (ix2 r j) := by
  obtain ⟨e0, e1, -⟩ := idx_facts t
  unfold iblk4
  rw [View.read_apply]
  show V c main_v76 _ = V c main_v76 _
  congr 1
  funext a
  apply Fin.ext
  match a with
  | ⟨0, _⟩ => show win4_0.index t (0 : Fin 2) * 2048 + 1 * p.val = r.val; rw [e0, hr]; omega
  | ⟨1, _⟩ => show win4_0.index t (1 : Fin 2) * 256 + 1 * j.val = j.val; rw [e1]; omega

/-- The first weight's block at every point is the whole weight. -/
theorem iblk_w1 (c : Dev nD) (t : Fin cfg4.N) (j k : Fin 256) :
    (iblk4 V c 1 t : Vec Ideal S256x256 .bf16) (ix2 j k) = (V c main_v77 : S256x256.Idx → Elt Ideal .bf16) (ix2 j k) := by
  obtain ⟨-, -, e0, e1, -⟩ := idx_facts t
  unfold iblk4
  rw [View.read_apply]
  show V c main_v77 _ = V c main_v77 _
  congr 1
  funext a
  apply Fin.ext
  match a with
  | ⟨0, _⟩ => show win4_1.index t (0 : Fin 2) * 256 + 1 * j.val = j.val; rw [e0]; omega
  | ⟨1, _⟩ => show win4_1.index t (1 : Fin 2) * 256 + 1 * k.val = k.val; rw [e1]; omega

/-- The first bias's block at every point is the whole bias. -/
theorem iblk_b1 (c : Dev nD) (t : Fin cfg4.N) (k : Fin 256) :
    (iblk4 V c 2 t : Vec Ideal S256 .f32) (ix1 k) = (V c main_arg9 : S256.Idx → Elt Ideal .f32) (ix1 k) := by
  obtain ⟨-, -, -, -, e0, -⟩ := idx_facts t
  unfold iblk4
  rw [View.read_apply]
  show V c main_arg9 _ = V c main_arg9 _
  congr 1
  funext a
  apply Fin.ext
  match a with
  | ⟨0, _⟩ => show win4_2.index t (0 : Fin 1) * 256 + 1 * k.val = k.val; rw [e0]; omega

/-- The second weight's block at every point is the whole weight. -/
theorem iblk_w2 (c : Dev nD) (t : Fin cfg4.N) (k : Fin 256) (u : Fin 1) :
    (iblk4 V c 3 t : Vec Ideal S256x1 .bf16) (ix2 k u) = (V c main_v78 : S256x1.Idx → Elt Ideal .bf16) (ix2 k u) := by
  obtain ⟨-, -, -, -, -, e0, e1, -⟩ := idx_facts t
  unfold iblk4
  rw [View.read_apply]
  show V c main_v78 _ = V c main_v78 _
  congr 1
  funext a
  apply Fin.ext
  match a with
  | ⟨0, _⟩ => show win4_3.index t (0 : Fin 2) * 256 + 1 * k.val = k.val; rw [e0]; omega
  | ⟨1, _⟩ => show win4_3.index t (1 : Fin 2) * 1 + 1 * u.val = u.val; rw [e1]; omega

/-- The second bias's block at every point is the whole bias. -/
theorem iblk_b2 (c : Dev nD) (t : Fin cfg4.N) (u : Fin 1) :
    (iblk4 V c 4 t : Vec Ideal S1 .f32) (ix1 u) = (V c main_arg11 : S1.Idx → Elt Ideal .f32) (ix1 u) := by
  obtain ⟨-, -, -, -, -, -, -, e0, -⟩ := idx_facts t
  unfold iblk4
  rw [View.read_apply]
  show V c main_arg11 _ = V c main_arg11 _
  congr 1
  funext a
  apply Fin.ext
  match a with
  | ⟨0, _⟩ => show win4_4.index t (0 : Fin 1) * 1 + 1 * u.val = u.val; rw [e0]; omega

/-- What point t writes back is block t of the whole-array head of the arrays the region finds. -/
theorem flushed_eq (c : Dev nD) (t : Fin cfg4.N) :
    (dat4 (F := Ideal) V c).flushed 5 t = ((cfg4.win 5).blk t).view.read (Elt Ideal)
      (Cert.Stages.head (F := Ideal) (V c main_v76) (V c main_v77) (V c main_arg9) (V c main_v78) (V c main_arg11)) := by
  show (cfg4.win 5).cut (grid4.coords t) ((dat4 (F := Ideal) V c).after 5 t) = _
  rw [after4_5]
  unfold out4_5
  rw [View.canon_unit_zero hz2]
  simp only [View.ld_unit_zero (S := S2048x256) hz2, View.ld_unit_zero (S := S256x256) hz2,
    View.ld_unit_zero (S := S256) hz1, View.ld_unit_zero (S := S256x1) hz2, View.ld_unit_zero (S := S1) hz1]
  obtain ⟨-, -, -, -, -, -, -, -, e0, e1⟩ := idx_facts t
  funext y
  show k4_pay1 (iblk4 V c 0 t) (iblk4 V c 1 t) (iblk4 V c 2 t) (iblk4 V c 3 t) (iblk4 V c 4 t)
      ((cfg4.win 5).xinj (grid4.coords t) y)
    = Cert.Stages.head (F := Ideal) (V c main_v76) (V c main_v77) (V c main_arg9) (V c main_v78) (V c main_arg11)
      (((cfg4.win 5).blk t).view.emb y)
  refine entry_eq (V c main_v76) (V c main_v77) (V c main_arg9) (V c main_v78) (V c main_arg11)
    (iblk4 V c 0 t) (iblk4 V c 1 t) (iblk4 V c 2 t) (iblk4 V c 3 t) (iblk4 V c 4 t) t.val
    (fun p j r hr => iblk_p V c t p j r hr) (fun j k => iblk_w1 V c t j k) (fun k => iblk_b1 V c t k)
    (fun k u => iblk_w2 V c t k u) (fun u => iblk_b2 V c t u)
    ((cfg4.win 5).xinj (grid4.coords t) y) (((cfg4.win 5).blk t).view.emb y) ?_ ?_
  · show win4_5.index t (0 : Fin 2) * 2048 + 1 * (y 0).val = 2048 * t.val + (y 0).val
    rw [e0]; omega
  · show win4_5.index t (1 : Fin 2) * 1 + 1 * (y 1).val = (y 1).val
    rw [e1]; omega

/-! ## From the blocks to the array -/

/-- An index of the result array is in point t's block iff each coordinate is in the block's range on its axis. -/
theorem mem_blk (t : Fin cfg4.N) (i : S8192x1.Idx) :
    i ∈ ((cfg4.win 5).blk t).view.set ↔ ∀ a : Fin 2, win4_5.index t a * S2048x1.size a ≤ (i a).val
      ∧ (i a).val < win4_5.index t a * S2048x1.size a + S2048x1.size a := by
  show i ∈ ((View.whole main_v79).slice (win4_5.rect t)).set ↔ _
  rw [View.set_slice_whole, Rect.mem_set_unit]
  exact Iff.rfl

/-- Row r of the result lies in the block of point r / 2048. -/
theorem cover (i : S8192x1.Idx) :
    ∃ t : Fin cfg4.N, (cfg4.win 5).flush t = true ∧ i ∈ ((cfg4.win 5).blk t).view.set := by
  have hN : cfg4.N = 4 := N_4
  have hi0 : (i 0).val < 8192 := (i 0).isLt
  have hi1 : (i 1).val < 1 := (i 1).isLt
  let t : Fin cfg4.N := ⟨(i 0).val / 2048, by rw [hN]; omega⟩
  have ht : t.val = (i 0).val / 2048 := rfl
  obtain ⟨-, -, -, -, -, -, -, -, e0, e1⟩ := idx_facts t
  refine ⟨t, flush4_5 t, ?_⟩
  rw [mem_blk]
  intro a
  match a with
  | ⟨0, _⟩ =>
    show win4_5.index t (0 : Fin 2) * 2048 ≤ (i 0).val ∧ (i 0).val < win4_5.index t (0 : Fin 2) * 2048 + 2048
    rw [e0, ht]; omega
  | ⟨1, _⟩ =>
    show win4_5.index t (1 : Fin 2) * 1 ≤ (i 1).val ∧ (i 1).val < win4_5.index t (1 : Fin 2) * 1 + 1
    rw [e1]; omega

/-- The array the head region leaves is the whole-array head of the arrays it finds. -/
theorem final (c : Dev nD) :
    (dat4 (F := Ideal) V c).arrAt 5 cfg4.N
      = Cert.Stages.head (F := Ideal) (V c main_v76) (V c main_v77) (V c main_arg9) (V c main_v78) (V c main_arg11) :=
  (dat4 (F := Ideal) V c).arrAt_eq_of_cover 5 _ (fun t _ => flushed_eq V c t) cover

end Cert.Region4

end
-- ==== Proof.RefRun.lean ====
/-
  The reference network as one straight line of host operations.

  The reference computes the graph network by array operations only: the two rows of the edge table, the clamped
  in-degree and its reciprocal, the embedding, three layers each made of a row gather, a scatter-add, a product with
  the reciprocal degree, two matrix products and a bias row, the per-graph sum, and the two-layer head.  The leaky
  rectifier after the first two layers and inside the head is a function of the program called three times; a call
  means the callee's operations run on the call's own buffers, so each call stands here as the callee's six
  operations followed by the select of the function it calls in turn, seven operations in the call's place.  The
  whole program is then a list of 138 operations, and running it from any memory ends, on every device, with each
  buffer holding the fold of those operations over what the buffers held at launch.
-/
import proofs.«123895_j50663434223943_1_alg».proof.ReferenceIdeal
import Idealize.ShloMosaic.Lib.StableHlo.Run

noncomputable section

namespace Cert.RefRun

open Idealize.ShloMosaic Idealize.ShloMosaic.StableHlo Idealize.SL.Sem Cert.ReferenceIdeal
open Idealize.ShloMosaic.TcCoe Cert.ReferenceIdeal.Facts₀

variable {F : FTy → Type} [FloatOps F] [Cert.ReferenceIdeal.Facts]

/-- The program's operations in order.  Operations 1 to 49 are the edge rows, the reciprocal clamped in-degree, the
    embedding and the first layer before its activation; 50 to 56 the first rectifier (the zero and its broadcast, the
    comparison with zero, the slope converted to its own type and broadcast, the product with the slope, the select);
    57 to 84 the second layer; 85 to 91 the second rectifier; 92 to 127 the third layer, the per-graph sum and the
    head's first dense map; 128 to 134 the head's rectifier; 135 to 138 the head's second dense map. -/
abbrev ops : List (HloOp τ sig (Elt F)) :=
  [ unary main_arg1 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg1 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    nullary main_cst (constant S_ .f32 0x3F800000#32),
    unary main_cst main_v4 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v5 (broadcastInDim S262144 ![] bcast_S_S262144 : (⟨S_, .f32⟩ : BufTy).Contents (Elt F) → (⟨S262144, .f32⟩ : BufTy).Contents (Elt F)),
    unary main_v3 main_v6 (broadcastInDim S1048576x1 ![0] bcast_S1048576_S1048576x1_0 : (⟨S1048576, .i32⟩ : BufTy).Contents (Elt F) → (⟨S1048576x1, .i32⟩ : BufTy).Contents (Elt F)),
    ternary main_v5 main_v6 main_v4 main_v7 ((fun x i u => Host.scatterAdd scatter_S262144_S1048576x1_S1048576_n_0_0_1 x i u) : (⟨S262144, .f32⟩ : BufTy).Contents (Elt F) → (⟨S1048576x1, .i32⟩ : BufTy).Contents (Elt F) → (⟨S1048576, .f32⟩ : BufTy).Contents (Elt F) → (⟨S262144, .f32⟩ : BufTy).Contents (Elt F)),
    nullary main_cst_1 (constant S_ .f32 0x3F800000#32),
    unary main_cst_1 main_v8 (broadcastInDim S262144 ![] bcast_S_S262144 : (⟨S_, .f32⟩ : BufTy).Contents (Elt F) → (⟨S262144, .f32⟩ : BufTy).Contents (Elt F)),
    binary main_v7 main_v8 main_v9 (maximumf : (⟨S262144, .f32⟩ : BufTy).Contents (Elt F) → (⟨S262144, .f32⟩ : BufTy).Contents (Elt F) → (⟨S262144, .f32⟩ : BufTy).Contents (Elt F)),
    nullary main_cst_2 (constant S_ .f32 0x3F800000#32),
    unary main_cst_2 main_v10 (broadcastInDim S262144 ![] bcast_S_S262144 : (⟨S_, .f32⟩ : BufTy).Contents (Elt F) → (⟨S262144, .f32⟩ : BufTy).Contents (Elt F)),
    binary main_v10 main_v9 main_v11 (Host.divf : (⟨S262144, .f32⟩ : BufTy).Contents (Elt F) → (⟨S262144, .f32⟩ : BufTy).Contents (Elt F) → (⟨S262144, .f32⟩ : BufTy).Contents (Elt F)),
    unary main_v11 main_v12 (broadcastInDim S262144x1 ![0] bcast_S262144_S262144x1_0 : (⟨S262144, .f32⟩ : BufTy).Contents (Elt F) → (⟨S262144x1, .f32⟩ : BufTy).Contents (Elt F)),
    binary main_arg0 main_arg3 main_v13 ((fun l r => Host.dotGeneral dot_S262144x64_S64x256_S262144x256_1_0_0_1_n_n none l r) : (⟨S262144x64, .f32⟩ : BufTy).Contents (Elt F) → (⟨S64x256, .f32⟩ : BufTy).Contents (Elt F) → (⟨S262144x256, .f32⟩ : BufTy).Contents (Elt F)),
    unary main_arg4 main_v14 (broadcastInDim S1x256 ![1] bcast_S256_S1x256_1 : (⟨S256, .f32⟩ : BufTy).Contents (Elt F) → (⟨S1x256, .f32⟩ : BufTy).Contents (Elt F)),
    unary main_v14 main_v15 (broadcastInDim S262144x256 ![0, 1] bcast_S1x256_S262144x256_0_1 : (⟨S1x256, .f32⟩ : BufTy).Contents (Elt F) → (⟨S262144x256, .f32⟩ : BufTy).Contents (Elt F)),
    binary main_v13 main_v15 main_v16 (addf : (⟨S262144x256, .f32⟩ : BufTy).Contents (Elt F) → (⟨S262144x256, .f32⟩ : BufTy).Contents (Elt F) → (⟨S262144x256, .f32⟩ : BufTy).Contents (Elt F)),
    nullary main_c (constantI S_ 32 0#32),
    unary main_c main_v17 (broadcastInDim S1048576 ![] bcast_S_S1048576 : (⟨S_, .i32⟩ : BufTy).Contents (Elt F) → (⟨S1048576, .i32⟩ : BufTy).Contents (Elt F)),
    binary main_v1 main_v17 main_v18 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 262144#32),
    unary main_c_3 main_v19 (broadcastInDim S1048576 ![] bcast_S_S1048576 : (⟨S_, .i32⟩ : BufTy).Contents (Elt F) → (⟨S1048576, .i32⟩ : BufTy).Contents (Elt F)),
    binary main_v1 main_v19 main_v20 (addi : (⟨S1048576, .i32⟩ : BufTy).Contents (Elt F) → (⟨S1048576, .i32⟩ : BufTy).Contents (Elt F) → (⟨S1048576, .i32⟩ : BufTy).Contents (Elt F)),
    ternary main_v18 main_v20 main_v1 main_v21 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v21 main_v22 (broadcastInDim S1048576x1 ![0] bcast_S1048576_S1048576x1_0 : (⟨S1048576, .i32⟩ : BufTy).Contents (Elt F) → (⟨S1048576x1, .i32⟩ : BufTy).Contents (Elt F)),
    binary main_v16 main_v22 main_v23 ((fun x i => Host.gather gather_S262144x256_S1048576x1_S1048576x256_1_0_n_n_0_1_1256 x i) : (⟨S262144x256, .f32⟩ : BufTy).Contents (Elt F) → (⟨S1048576x1, .i32⟩ : BufTy).Contents (Elt F) → (⟨S1048576x256, .f32⟩ : BufTy).Contents (Elt F)),
    nullary main_cst_4 (constant S_ .f32 0x00000000#32),
    unary main_cst_4 main_v24 (broadcastInDim S262144x256 ![] bcast_S_S262144x256 : (⟨S_, .f32⟩ : BufTy).Contents (Elt F) → (⟨S262144x256, .f32⟩ : BufTy).Contents (Elt F)),
    unary main_v3 main_v25 (broadcastInDim S1048576x1 ![0] bcast_S1048576_S1048576x1_0 : (⟨S1048576, .i32⟩ : BufTy).Contents (Elt F) → (⟨S1048576x1, .i32⟩ : BufTy).Contents (Elt F)),
    ternary main_v24 main_v25 main_v23 main_v26 ((fun x i u => Host.scatterAdd scatter_S262144x256_S1048576x1_S1048576x256_1_0_0_1 x i u) : (⟨S262144x256, .f32⟩ : BufTy).Contents (Elt F) → (⟨S1048576x1, .i32⟩ : BufTy).Contents (Elt F) → (⟨S1048576x256, .f32⟩ : BufTy).Contents (Elt F) → (⟨S262144x256, .f32⟩ : BufTy).Contents (Elt F)),
    unary main_v12 main_v27 (broadcastInDim S262144x256 ![0, 1] bcast_S262144x1_S262144x256_0_1 : (⟨S262144x1, .f32⟩ : BufTy).Contents (Elt F) → (⟨S262144x256, .f32⟩ : BufTy).Contents (Elt F)),
    binary main_v26 main_v27 main_v28 (mulf : (⟨S262144x256, .f32⟩ : BufTy).Contents (Elt F) → (⟨S262144x256, .f32⟩ : BufTy).Contents (Elt F) → (⟨S262144x256, .f32⟩ : BufTy).Contents (Elt F)),
    unary main_arg5 main_v29 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v29 main_v30 rfl shapeCasts_S1x256x256_S256x256,
    binary main_v28 main_v30 main_v31 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg6 main_v32 ((extractStridedSlice S1x256 ![0, 0] · slices_S3x256_S1x256_0_0) : (⟨S3x256, .f32⟩ : BufTy).Contents (Elt F) → (⟨S1x256, .f32⟩ : BufTy).Contents (Elt F)),
    reshape main_v32 main_v33 rfl shapeCasts_S1x256_S256,
    unary main_v33 main_v34 (broadcastInDim S1x256 ![1] bcast_S256_S1x256_1 : (⟨S256, .f32⟩ : BufTy).Contents (Elt F) → (⟨S1x256, .f32⟩ : BufTy).Contents (Elt F)),
    unary main_v34 main_v35 (broadcastInDim S262144x256 ![0, 1] bcast_S1x256_S262144x256_0_1 : (⟨S1x256, .f32⟩ : BufTy).Contents (Elt F) → (⟨S262144x256, .f32⟩ : BufTy).Contents (Elt F)),
    binary main_v31 main_v35 main_v36 (addf : (⟨S262144x256, .f32⟩ : BufTy).Contents (Elt F) → (⟨S262144x256, .f32⟩ : BufTy).Contents (Elt F) → (⟨S262144x256, .f32⟩ : BufTy).Contents (Elt F)),
    unary main_arg7 main_v37 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v37 main_v38 rfl shapeCasts_S1x256x256_S256x256,
    binary main_v16 main_v38 main_v39 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    binary main_v36 main_v39 main_v40 (addf : (⟨S262144x256, .f32⟩ : BufTy).Contents (Elt F) → (⟨S262144x256, .f32⟩ : BufTy).Contents (Elt F) → (⟨S262144x256, .f32⟩ : BufTy).Contents (Elt F)),
    nullary main_cst_5 (constant S_ .f32 0x3DCCCCCD#32),
    TRef.nullary main_call0.cst (constant S_ .f32 0x00000000#32),
    TRef.unary main_call0.cst main_call0.v0 (broadcastInDim S262144x256 ![] bcast_S_S262144x256),
    TRef.binary (TRef.of (T := ⟨S262144x256, .f32⟩) main_v40) main_call0.v0 main_call0.v1 (cmpf .oge),
    TRef.unary (TRef.of (T := ⟨S_, .f32⟩) main_cst_5) main_call0.v2 id,
    TRef.unary main_call0.v2 main_call0.v3 (broadcastInDim S262144x256 ![] bcast_S_S262144x256),
    TRef.binary main_call0.v3 (TRef.of (T := ⟨S262144x256, .f32⟩) main_v40) main_call0.v4 mulf,
    TRef.ternary main_call0.v1 (TRef.of (T := ⟨S262144x256, .f32⟩) main_v40) main_call0.v4 main_call0.call0.v0 select,
    nullary main_c_6 (constantI S_ 32 0#32),
    unary main_c_6 main_v42 (broadcastInDim S1048576 ![] bcast_S_S1048576 : (⟨S_, .i32⟩ : BufTy).Contents (Elt F) → (⟨S1048576, .i32⟩ : BufTy).Contents (Elt F)),
    binary main_v1 main_v42 main_v43 (cmpi .slt : (⟨S1048576, .i32⟩ : BufTy).Contents (Elt F) → (⟨S1048576, .i32⟩ : BufTy).Contents (Elt F) → (⟨S1048576, .i1⟩ : BufTy).Contents (Elt F)),
    nullary main_c_7 (constantI S_ 32 262144#32),
    unary main_c_7 main_v44 (broadcastInDim S1048576 ![] bcast_S_S1048576 : (⟨S_, .i32⟩ : BufTy).Contents (Elt F) → (⟨S1048576, .i32⟩ : BufTy).Contents (Elt F)),
    binary main_v1 main_v44 main_v45 (addi : (⟨S1048576, .i32⟩ : BufTy).Contents (Elt F) → (⟨S1048576, .i32⟩ : BufTy).Contents (Elt F) → (⟨S1048576, .i32⟩ : BufTy).Contents (Elt F)),
    ternary main_v43 main_v45 main_v1 main_v46 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v46 main_v47 (broadcastInDim S1048576x1 ![0] bcast_S1048576_S1048576x1_0 : (⟨S1048576, .i32⟩ : BufTy).Contents (Elt F) → (⟨S1048576x1, .i32⟩ : BufTy).Contents (Elt F)),
    binary main_v41 main_v47 main_v48 ((fun x i => Host.gather gather_S262144x256_S1048576x1_S1048576x256_1_0_n_n_0_1_1256 x i) : (⟨S262144x256, .f32⟩ : BufTy).Contents (Elt F) → (⟨S1048576x1, .i32⟩ : BufTy).Contents (Elt F) → (⟨S1048576x256, .f32⟩ : BufTy).Contents (Elt F)),
    nullary main_cst_8 (constant S_ .f32 0x00000000#32),
    unary main_cst_8 main_v49 (broadcastInDim S262144x256 ![] bcast_S_S262144x256 : (⟨S_, .f32⟩ : BufTy).Contents (Elt F) → (⟨S262144x256, .f32⟩ : BufTy).Contents (Elt F)),
    unary main_v3 main_v50 (broadcastInDim S1048576x1 ![0] bcast_S1048576_S1048576x1_0 : (⟨S1048576, .i32⟩ : BufTy).Contents (Elt F) → (⟨S1048576x1, .i32⟩ : BufTy).Contents (Elt F)),
    ternary main_v49 main_v50 main_v48 main_v51 ((fun x i u => Host.scatterAdd scatter_S262144x256_S1048576x1_S1048576x256_1_0_0_1 x i u) : (⟨S262144x256, .f32⟩ : BufTy).Contents (Elt F) → (⟨S1048576x1, .i32⟩ : BufTy).Contents (Elt F) → (⟨S1048576x256, .f32⟩ : BufTy).Contents (Elt F) → (⟨S262144x256, .f32⟩ : BufTy).Contents (Elt F)),
    unary main_v12 main_v52 (broadcastInDim S262144x256 ![0, 1] bcast_S262144x1_S262144x256_0_1 : (⟨S262144x1, .f32⟩ : BufTy).Contents (Elt F) → (⟨S262144x256, .f32⟩ : BufTy).Contents (Elt F)),
    binary main_v51 main_v52 main_v53 (mulf : (⟨S262144x256, .f32⟩ : BufTy).Contents (Elt F) → (⟨S262144x256, .f32⟩ : BufTy).Contents (Elt F) → (⟨S262144x256, .f32⟩ : BufTy).Contents (Elt F)),
    unary main_arg5 main_v54 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v54 main_v55 rfl shapeCasts_S1x256x256_S256x256,
    binary main_v53 main_v55 main_v56 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg6 main_v57 ((extractStridedSlice S1x256 ![1, 0] · slices_S3x256_S1x256_1_0) : (⟨S3x256, .f32⟩ : BufTy).Contents (Elt F) → (⟨S1x256, .f32⟩ : BufTy).Contents (Elt F)),
    reshape main_v57 main_v58 rfl shapeCasts_S1x256_S256,
    unary main_v58 main_v59 (broadcastInDim S1x256 ![1] bcast_S256_S1x256_1 : (⟨S256, .f32⟩ : BufTy).Contents (Elt F) → (⟨S1x256, .f32⟩ : BufTy).Contents (Elt F)),
    unary main_v59 main_v60 (broadcastInDim S262144x256 ![0, 1] bcast_S1x256_S262144x256_0_1 : (⟨S1x256, .f32⟩ : BufTy).Contents (Elt F) → (⟨S262144x256, .f32⟩ : BufTy).Contents (Elt F)),
    binary main_v56 main_v60 main_v61 (addf : (⟨S262144x256, .f32⟩ : BufTy).Contents (Elt F) → (⟨S262144x256, .f32⟩ : BufTy).Contents (Elt F) → (⟨S262144x256, .f32⟩ : BufTy).Contents (Elt F)),
    unary main_arg7 main_v62 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v62 main_v63 rfl shapeCasts_S1x256x256_S256x256,
    binary main_v41 main_v63 main_v64 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    binary main_v61 main_v64 main_v65 (addf : (⟨S262144x256, .f32⟩ : BufTy).Contents (Elt F) → (⟨S262144x256, .f32⟩ : BufTy).Contents (Elt F) → (⟨S262144x256, .f32⟩ : BufTy).Contents (Elt F)),
    nullary main_cst_9 (constant S_ .f32 0x3DCCCCCD#32),
    TRef.nullary main_call1.cst (constant S_ .f32 0x00000000#32),
    TRef.unary main_call1.cst main_call1.v0 (broadcastInDim S262144x256 ![] bcast_S_S262144x256),
    TRef.binary (TRef.of (T := ⟨S262144x256, .f32⟩) main_v65) main_call1.v0 main_call1.v1 (cmpf .oge),
    TRef.unary (TRef.of (T := ⟨S_, .f32⟩) main_cst_9) main_call1.v2 id,
    TRef.unary main_call1.v2 main_call1.v3 (broadcastInDim S262144x256 ![] bcast_S_S262144x256),
    TRef.binary main_call1.v3 (TRef.of (T := ⟨S262144x256, .f32⟩) main_v65) main_call1.v4 mulf,
    TRef.ternary main_call1.v1 (TRef.of (T := ⟨S262144x256, .f32⟩) main_v65) main_call1.v4 main_call1.call0.v0 select,
    nullary main_c_10 (constantI S_ 32 0#32),
    unary main_c_10 main_v67 (broadcastInDim S1048576 ![] bcast_S_S1048576 : (⟨S_, .i32⟩ : BufTy).Contents (Elt F) → (⟨S1048576, .i32⟩ : BufTy).Contents (Elt F)),
    binary main_v1 main_v67 main_v68 (cmpi .slt : (⟨S1048576, .i32⟩ : BufTy).Contents (Elt F) → (⟨S1048576, .i32⟩ : BufTy).Contents (Elt F) → (⟨S1048576, .i1⟩ : BufTy).Contents (Elt F)),
    nullary main_c_11 (constantI S_ 32 262144#32),
    unary main_c_11 main_v69 (broadcastInDim S1048576 ![] bcast_S_S1048576 : (⟨S_, .i32⟩ : BufTy).Contents (Elt F) → (⟨S1048576, .i32⟩ : BufTy).Contents (Elt F)),
    binary main_v1 main_v69 main_v70 (addi : (⟨S1048576, .i32⟩ : BufTy).Contents (Elt F) → (⟨S1048576, .i32⟩ : BufTy).Contents (Elt F) → (⟨S1048576, .i32⟩ : BufTy).Contents (Elt F)),
    ternary main_v68 main_v70 main_v1 main_v71 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v71 main_v72 (broadcastInDim S1048576x1 ![0] bcast_S1048576_S1048576x1_0 : (⟨S1048576, .i32⟩ : BufTy).Contents (Elt F) → (⟨S1048576x1, .i32⟩ : BufTy).Contents (Elt F)),
    binary main_v66 main_v72 main_v73 ((fun x i => Host.gather gather_S262144x256_S1048576x1_S1048576x256_1_0_n_n_0_1_1256 x i) : (⟨S262144x256, .f32⟩ : BufTy).Contents (Elt F) → (⟨S1048576x1, .i32⟩ : BufTy).Contents (Elt F) → (⟨S1048576x256, .f32⟩ : BufTy).Contents (Elt F)),
    nullary main_cst_12 (constant S_ .f32 0x00000000#32),
    unary main_cst_12 main_v74 (broadcastInDim S262144x256 ![] bcast_S_S262144x256 : (⟨S_, .f32⟩ : BufTy).Contents (Elt F) → (⟨S262144x256, .f32⟩ : BufTy).Contents (Elt F)),
    unary main_v3 main_v75 (broadcastInDim S1048576x1 ![0] bcast_S1048576_S1048576x1_0 : (⟨S1048576, .i32⟩ : BufTy).Contents (Elt F) → (⟨S1048576x1, .i32⟩ : BufTy).Contents (Elt F)),
    ternary main_v74 main_v75 main_v73 main_v76 ((fun x i u => Host.scatterAdd scatter_S262144x256_S1048576x1_S1048576x256_1_0_0_1 x i u) : (⟨S262144x256, .f32⟩ : BufTy).Contents (Elt F) → (⟨S1048576x1, .i32⟩ : BufTy).Contents (Elt F) → (⟨S1048576x256, .f32⟩ : BufTy).Contents (Elt F) → (⟨S262144x256, .f32⟩ : BufTy).Contents (Elt F)),
    unary main_v12 main_v77 (broadcastInDim S262144x256 ![0, 1] bcast_S262144x1_S262144x256_0_1 : (⟨S262144x1, .f32⟩ : BufTy).Contents (Elt F) → (⟨S262144x256, .f32⟩ : BufTy).Contents (Elt F)),
    binary main_v76 main_v77 main_v78 (mulf : (⟨S262144x256, .f32⟩ : BufTy).Contents (Elt F) → (⟨S262144x256, .f32⟩ : BufTy).Contents (Elt F) → (⟨S262144x256, .f32⟩ : BufTy).Contents (Elt F)),
    unary main_arg5 main_v79 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v79 main_v80 rfl shapeCasts_S1x256x256_S256x256,
    binary main_v78 main_v80 main_v81 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg6 main_v82 ((extractStridedSlice S1x256 ![2, 0] · slices_S3x256_S1x256_2_0) : (⟨S3x256, .f32⟩ : BufTy).Contents (Elt F) → (⟨S1x256, .f32⟩ : BufTy).Contents (Elt F)),
    reshape main_v82 main_v83 rfl shapeCasts_S1x256_S256,
    unary main_v83 main_v84 (broadcastInDim S1x256 ![1] bcast_S256_S1x256_1 : (⟨S256, .f32⟩ : BufTy).Contents (Elt F) → (⟨S1x256, .f32⟩ : BufTy).Contents (Elt F)),
    unary main_v84 main_v85 (broadcastInDim S262144x256 ![0, 1] bcast_S1x256_S262144x256_0_1 : (⟨S1x256, .f32⟩ : BufTy).Contents (Elt F) → (⟨S262144x256, .f32⟩ : BufTy).Contents (Elt F)),
    binary main_v81 main_v85 main_v86 (addf : (⟨S262144x256, .f32⟩ : BufTy).Contents (Elt F) → (⟨S262144x256, .f32⟩ : BufTy).Contents (Elt F) → (⟨S262144x256, .f32⟩ : BufTy).Contents (Elt F)),
    unary main_arg7 main_v87 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v87 main_v88 rfl shapeCasts_S1x256x256_S256x256,
    binary main_v66 main_v88 main_v89 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    binary main_v86 main_v89 main_v90 (addf : (⟨S262144x256, .f32⟩ : BufTy).Contents (Elt F) → (⟨S262144x256, .f32⟩ : BufTy).Contents (Elt F) → (⟨S262144x256, .f32⟩ : BufTy).Contents (Elt F)),
    nullary main_cst_13 (constant S_ .f32 0x00000000#32),
    unary main_cst_13 main_v91 (broadcastInDim S8192x256 ![] bcast_S_S8192x256 : (⟨S_, .f32⟩ : BufTy).Contents (Elt F) → (⟨S8192x256, .f32⟩ : BufTy).Contents (Elt F)),
    unary main_arg2 main_v92 (broadcastInDim S262144x1 ![0] bcast_S262144_S262144x1_0 : (⟨S262144, .i32⟩ : BufTy).Contents (Elt F) → (⟨S262144x1, .i32⟩ : BufTy).Contents (Elt F)),
    ternary main_v91 main_v92 main_v90 main_v93 ((fun x i u => Host.scatterAdd scatter_S8192x256_S262144x1_S262144x256_1_0_0_1 x i u) : (⟨S8192x256, .f32⟩ : BufTy).Contents (Elt F) → (⟨S262144x1, .i32⟩ : BufTy).Contents (Elt F) → (⟨S262144x256, .f32⟩ : BufTy).Contents (Elt F) → (⟨S8192x256, .f32⟩ : BufTy).Contents (Elt F)),
    binary main_v93 main_arg8 main_v94 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg9 main_v95 (broadcastInDim S1x256 ![1] bcast_S256_S1x256_1 : (⟨S256, .f32⟩ : BufTy).Contents (Elt F) → (⟨S1x256, .f32⟩ : BufTy).Contents (Elt F)),
    unary main_v95 main_v96 (broadcastInDim S8192x256 ![0, 1] bcast_S1x256_S8192x256_0_1 : (⟨S1x256, .f32⟩ : BufTy).Contents (Elt F) → (⟨S8192x256, .f32⟩ : BufTy).Contents (Elt F)),
    binary main_v94 main_v96 main_v97 (addf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x3DCCCCCD#32),
    TRef.nullary main_call2.cst (constant S_ .f32 0x00000000#32),
    TRef.unary main_call2.cst main_call2.v0 (broadcastInDim S8192x256 ![] bcast_S_S8192x256),
    TRef.binary (TRef.of (T := ⟨S8192x256, .f32⟩) main_v97) main_call2.v0 main_call2.v1 (cmpf .oge),
    TRef.unary (TRef.of (T := ⟨S_, .f32⟩) main_cst_14) main_call2.v2 id,
    TRef.unary main_call2.v2 main_call2.v3 (broadcastInDim S8192x256 ![] bcast_S_S8192x256),
    TRef.binary main_call2.v3 (TRef.of (T := ⟨S8192x256, .f32⟩) main_v97) main_call2.v4 mulf,
    TRef.ternary main_call2.v1 (TRef.of (T := ⟨S8192x256, .f32⟩) main_v97) main_call2.v4 main_call2.call0.v0 select,
    binary main_v98 main_arg10 main_v99 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg11 main_v100 (broadcastInDim S1x1 ![1] bcast_S1_S1x1_1 : (⟨S1, .f32⟩ : BufTy).Contents (Elt F) → (⟨S1x1, .f32⟩ : BufTy).Contents (Elt F)),
    unary main_v100 main_v101 (broadcastInDim S8192x1 ![0, 1] bcast_S1x1_S8192x1_0_1 : (⟨S1x1, .f32⟩ : BufTy).Contents (Elt F) → (⟨S8192x1, .f32⟩ : BufTy).Contents (Elt F)),
    binary main_v99 main_v101 main_v102 (addf : (⟨S8192x1, .f32⟩ : BufTy).Contents (Elt F) → (⟨S8192x1, .f32⟩ : BufTy).Contents (Elt F) → (⟨S8192x1, .f32⟩ : BufTy).Contents (Elt F)) ]

set_option maxRecDepth 65536 in
set_option maxHeartbeats 4000000 in
/-- The program is that line: its three stretches of statements run in order, each call replaced by its callee's
    body over the call's buffers, are one chain of operation steps once the sequencing is reassociated. -/
theorem main_eq (c : Dev nD) : main (F := F) c = seq ops := by
  simp only [main, main_part0, main_part1, main_part2, fn_leaky_relu.body, fn_leaky_relu_0.body, fn_where.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
/-- Every operation touches buffers of the device's own memory only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., reshape_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., binary_bufs_sub .., binary_bufs_sub .., nullary_bufs_sub .., unary_bufs_sub ..,
    unary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

set_option maxRecDepth 65536 in
set_option maxHeartbeats 4000000 in
/-- On every device, for any float values, from any memory with zero counters: every weakly fair execution of the
    program terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.RefRun

end
-- ==== Proof.RefValue.lean ====
/-
  What the reference's line of operations leaves at its argument buffers and at its result.

  Walking the line backwards from a buffer, an operation's own result buffer holds its function of what its operand
  buffers held before it, and every other buffer holds what it held before.  No operation writes an argument buffer,
  so each of the twelve ends as it began.  At the result buffer the walk composes the operations into one term over
  the twelve arguments: the head over the per-graph sum of the third layer's states, each layer over the mean of
  the previous states along the edges and over those states themselves, down to the embedding of the node
  features.  The callee's conversion of the slope to its own type is the identity, a reshape is the cast between
  the two shapes, and the buffers of a call hold values of the types the callee states; with these read through,
  the composed term is the network of the stage-by-stage specification, stage for stage.
-/
import proofs.«123895_j50663434223943_1_alg».proof.Proof.RefRun
import proofs.«123895_j50663434223943_1_alg».proof.Proof.Stages

noncomputable section

namespace Cert.RefRun

open Idealize.ShloMosaic Idealize.ShloMosaic.StableHlo Idealize.SL.Sem Cert.ReferenceIdeal
open Idealize.ShloMosaic.TcCoe

variable {F : FTy → Type} [FloatOps F] [Cert.ReferenceIdeal.Facts]

/-! ## The arguments end as they began -/

set_option maxRecDepth 65536 in
/-- No operation writes the buffer of the node features. -/
theorem arg0_eq (V : Valuation τ sig (Elt F)) :
    after ops V (main_arg0 : DevRef τ sig) = V (main_arg0 : DevRef τ sig) := by
  simp only [after_cons, after_nil]
  rfl

set_option maxRecDepth 65536 in
/-- No operation writes the buffer of the edge table. -/
theorem arg1_eq (V : Valuation τ sig (Elt F)) :
    after ops V (main_arg1 : DevRef τ sig) = V (main_arg1 : DevRef τ sig) := by
  simp only [after_cons, after_nil]
  rfl

set_option maxRecDepth 65536 in
/-- No operation writes the buffer of the nodes' graph numbers. -/
theorem arg2_eq (V : Valuation τ sig (Elt F)) :
    after ops V (main_arg2 : DevRef τ sig) = V (main_arg2 : DevRef τ sig) := by
  simp only [after_cons, after_nil]
  rfl

set_option maxRecDepth 65536 in
/-- No operation writes the buffer of the embedding's weights. -/
theorem arg3_eq (V : Valuation τ sig (Elt F)) :
    after ops V (main_arg3 : DevRef τ sig) = V (main_arg3 : DevRef τ sig) := by
  simp only [after_cons, after_nil]
  rfl

set_option maxRecDepth 65536 in
/-- No operation writes the buffer of the embedding's bias. -/
theorem arg4_eq (V : Valuation τ sig (Elt F)) :
    after ops V (main_arg4 : DevRef τ sig) = V (main_arg4 : DevRef τ sig) := by
  simp only [after_cons, after_nil]
  rfl

set_option maxRecDepth 65536 in
/-- No operation writes the buffer of the layers' weights on the mean. -/
theorem arg5_eq (V : Valuation τ sig (Elt F)) :
    after ops V (main_arg5 : DevRef τ sig) = V (main_arg5 : DevRef τ sig) := by
  simp only [after_cons, after_nil]
  rfl

set_option maxRecDepth 65536 in
/-- No operation writes the buffer of the layers' biases. -/
theorem arg6_eq (V : Valuation τ sig (Elt F)) :
    after ops V (main_arg6 : DevRef τ sig) = V (main_arg6 : DevRef τ sig) := by
  simp only [after_cons, after_nil]
  rfl

set_option maxRecDepth 65536 in
/-- No operation writes the buffer of the layers' weights on the node's own state. -/
theorem arg7_eq (V : Valuation τ sig (Elt F)) :
    after ops V (main_arg7 : DevRef τ sig) = V (main_arg7 : DevRef τ sig) := by
  simp only [after_cons, after_nil]
  rfl

set_option maxRecDepth 65536 in
/-- No operation writes the buffer of the head's first weights. -/
theorem arg8_eq (V : Valuation τ sig (Elt F)) :
    after ops V (main_arg8 : DevRef τ sig) = V (main_arg8 : DevRef τ sig) := by
  simp only [after_cons, after_nil]
  rfl

set_option maxRecDepth 65536 in
/-- No operation writes the buffer of the head's first bias. -/
theorem arg9_eq (V : Valuation τ sig (Elt F)) :
    after ops V (main_arg9 : DevRef τ sig) = V (main_arg9 : DevRef τ sig) := by
  simp only [after_cons, after_nil]
  rfl

set_option maxRecDepth 65536 in
/-- No operation writes the buffer of the head's second weights. -/
theorem arg10_eq (V : Valuation τ sig (Elt F)) :
    after ops V (main_arg10 : DevRef τ sig) = V (main_arg10 : DevRef τ sig) := by
  simp only [after_cons, after_nil]
  rfl

set_option maxRecDepth 65536 in
/-- No operation writes the buffer of the head's second bias. -/
theorem arg11_eq (V : Valuation τ sig (Elt F)) :
    after ops V (main_arg11 : DevRef τ sig) = V (main_arg11 : DevRef τ sig) := by
  simp only [after_cons, after_nil]
  rfl

/-! ## The result is the network -/

-- the row gather is kept folded: its body computes each row's source index from the index table, and the two sides never differ inside it
attribute [local irreducible] Host.gather in
set_option maxRecDepth 65536 in
set_option maxHeartbeats 4000000 in
/-- The result buffer ends at the network's function of the twelve arguments' contents: the operations composed
    backwards from the last sum are the specification's stages, the calls' typed buffers and the reshapes' casts
    being identities at these literal buffers. -/
theorem value (V : Valuation τ sig (Elt F)) :
    after ops V (main_v102 : DevRef τ sig) = Cert.Stages.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

end Cert.RefRun

end
-- ==== Proof.RefClaims.lean ====
/-
  The reference's run, stated at its result and its arguments.

  From any memory with zero counters every weakly fair execution of the reference terminates; each buffer then
  holds the fold of the program's operations over the launch contents.  Read at the result buffer that fold is the
  network's function of the twelve argument arrays as the memory held them at launch, and read at each argument
  buffer it is what the memory held there.  Dropping the result leaves the frame: the reference runs and its
  arguments end unchanged, whatever the arguments are.
-/
import proofs.«123895_j50663434223943_1_alg».proof.Defs
import proofs.«123895_j50663434223943_1_alg».proof.Proof.Gen.ReferenceIdeal
import proofs.«123895_j50663434223943_1_alg».proof.Proof.Gen.Pre_finite_inputs
import proofs.«123895_j50663434223943_1_alg».proof.Proof.RefRun
import proofs.«123895_j50663434223943_1_alg».proof.Proof.RefValue

noncomputable section

namespace Cert.RefClaims

open Idealize.ShloMosaic Idealize.ShloMosaic.StableHlo Idealize.SL.Sem Cert.ReferenceIdeal
open Idealize.ShloMosaic.TcCoe

/-- At the exact extended reals, on every device, from any memory with zero counters: every weakly fair execution
    of the reference terminates with its result buffer at the network's function of the argument arrays and with
    every argument array as it was. -/
theorem run_net (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v102)
          = Cert.Stages.net (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
            (m ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun _ h c => ⟨(h c main_v102).trans (Cert.RefRun.value _),
      (h c main_arg0).trans (Cert.RefRun.arg0_eq _),
      (h c main_arg1).trans (Cert.RefRun.arg1_eq _),
      (h c main_arg2).trans (Cert.RefRun.arg2_eq _),
      (h c main_arg3).trans (Cert.RefRun.arg3_eq _),
      (h c main_arg4).trans (Cert.RefRun.arg4_eq _),
      (h c main_arg5).trans (Cert.RefRun.arg5_eq _),
      (h c main_arg6).trans (Cert.RefRun.arg6_eq _),
      (h c main_arg7).trans (Cert.RefRun.arg7_eq _),
      (h c main_arg8).trans (Cert.RefRun.arg8_eq _),
      (h c main_arg9).trans (Cert.RefRun.arg9_eq _),
      (h c main_arg10).trans (Cert.RefRun.arg10_eq _),
      (h c main_arg11).trans (Cert.RefRun.arg11_eq _)⟩)
    (Cert.RefRun.run (F := Ideal) m ρ)

/-- The reference runs and its argument arrays end unchanged: the run above with the result dropped (the
    precondition on the inputs is not needed). -/
theorem frame : Cert.frame_ReferenceIdeal := fun m ρ _ =>
  (θ_run (Cert.ReferenceIdeal.defs (F := Ideal)) _ _).mono (fun _ h c => (h c).2) (run_net m ρ)

end Cert.RefClaims

end
-- ==== Proof.lean ====
/-
  The certificate of a mean-aggregating graph network computed in five pipelined regions against its array-level
  reference: on the extended reals both programs compute the same function of the twelve argument arrays.

  The reference embeds the node features by one dense layer, three times replaces the node states by
  `(mean of the in-neighbours' states) · Wl + bl + (own state) · Wr` (a slope-0.1 leaky rectifier after the first two),
  sums the final states per graph and applies a two-layer head.  The kernel program computes the means with the very
  same gathers and scatter-adds on the host and each dense stage in a pipelined region over blocks of rows: a matrix
  product into a zero accumulator is the host's contraction, a copy of a weight in a narrower float format is the
  weight itself on the extended reals, and the region's rectifier `x > 0 ? x : 0.1·x` agrees with the reference's
  `x ≥ 0 ? x : 0.1·x` everywhere (at zero both give zero).  No law of the extended reals beyond that is needed, so
  the finiteness of the inputs is never used.

  The pieces: `Stages` states every stage and the network over whole arrays; `Region0` … `Region4` show each
  region's output array is its stage's function of the region's input arrays; `KernelFold` walks the kernel program
  from its result buffer back to the launch memory; `RefRun`, `RefValue` and `RefClaims` run the reference and read
  its result.  The kernel program's idealization rewrote no operation, so `preserves` has nothing to state.
-/
import proofs.«123895_j50663434223943_1_alg».proof.Defs
import proofs.«123895_j50663434223943_1_alg».proof.Proof.Gen.Kernel
import proofs.«123895_j50663434223943_1_alg».proof.Proof.Gen.Kernel.Frame
import proofs.«123895_j50663434223943_1_alg».proof.Proof.Gen.KernelIdeal
import proofs.«123895_j50663434223943_1_alg».proof.Proof.Gen.KernelIdeal.Frame
import proofs.«123895_j50663434223943_1_alg».proof.Proof.Gen.ReferenceIdeal
import proofs.«123895_j50663434223943_1_alg».proof.Proof.Gen.Pre_finite_inputs
import proofs.«123895_j50663434223943_1_alg».proof.Proof.KernelRun
import proofs.«123895_j50663434223943_1_alg».proof.Proof.KernelFold
import proofs.«123895_j50663434223943_1_alg».proof.Proof.Region0
import proofs.«123895_j50663434223943_1_alg».proof.Proof.Region1
import proofs.«123895_j50663434223943_1_alg».proof.Proof.Region2
import proofs.«123895_j50663434223943_1_alg».proof.Proof.Region3
import proofs.«123895_j50663434223943_1_alg».proof.Proof.Region4
import proofs.«123895_j50663434223943_1_alg».proof.Proof.RefClaims

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized kernel program ends with its result at the network function of its arguments: the run names the
    result buffer's final contents, the walk back through the five regions evaluates them. -/
theorem kernel_net (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 m ρ c (Proc.devRef .tc Cert.KernelIdeal.main_v79)
      = Cert.Stages.net (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) :=
  Cert.KernelIdeal.Fold.value m ρ (fun V c => Cert.Region0.final V c) (fun V c => Cert.Region1.final V c)
    (fun V c => Cert.Region2.final V c) (fun V c => Cert.Region3.final V c) (fun V c => Cert.Region4.final V c) c

/-- From memories agreeing on the arguments both idealized programs end with the network function of those arguments
    in their result buffers. -/
theorem algebraic : Cert.algebraic_KernelIdeal_ReferenceIdeal := by
  intro m ρ m' ρ' _ hagree
  refine ⟨fun c => Cert.Stages.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono (fun _ h c => ⟨(h c).1.trans (kernel_net m ρ c), (h c).2⟩)
      (Cert.KernelIdeal.RunValue.run_value m ρ)
  · refine (θ_run Cert.ReferenceIdeal.defs _ _).mono (fun _ h c => ⟨(h c).1.trans ?_, (h c).2⟩)
      (Cert.RefClaims.run_net m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefClaims.frame, trivial, algebraic⟩

end Cert.Proof

end
